-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S256x768 : Shape := ⟨2, ![256, 768]⟩
abbrev S256 : Shape := ⟨1, ![256]⟩
abbrev S256x512 : Shape := ⟨2, ![256, 512]⟩
abbrev S25x256 : Shape := ⟨2, ![25, 256]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S25x256 : S_.BroadcastsInDim S25x256 (![] : Fin 0 → Fin S25x256.rank)
  reducesTo_S25x256_S_d0_1 : S25x256.ReducesTo [0, 1] S_

variable [Facts]

def fn_part2 {F : FTy → Type} [FloatOps F] (main_arg7 : FVec F S25x256 .f32) (main_v33 : IVec S_ 1) : IVec S_ 1 :=
  let main_v34 : FVec F S25x256 .f32 := Host.absf main_arg7
  let main_cst_12 : FVec F S_ .f32 := constant S_ .f32 0x7F800000#32
  let main_v35 : FVec F S25x256 .f32 := broadcastInDim S25x256 ![] bcast_S_S25x256 main_cst_12
  let main_v36 : IVec S25x256 1 := cmpf .olt main_v34 main_v35
  let main_c_13 : IVec S_ 1 := constantI S_ 1 1#1
  let main_v37 : IVec S_ 1 := (fun x v => Host.reduce IntOp.andi x v reducesTo_S25x256_S_d0_1 h_S_) main_v36 main_c_13
  let main_v38 : IVec S_ 1 := andi main_v33 main_v37
  main_v38

def fn_part1 {F : FTy → Type} [FloatOps F] (main_arg4 : FVec F S256 .f32) (main_arg5 : FVec F S256x512 .f32) (main_arg6 : FVec F S256 .f32) (main_arg7 : FVec F S25x256 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S4x256x768 .f32) (main_arg1 : FVec F S256x768 .f32) (main_arg2 : FVec F S256 .f32) (main_arg3 : FVec F S256x768 .f32) (main_arg4 : FVec F S256 .f32) (main_arg5 : FVec F S256x512 .f32) (main_arg6 : FVec F S256 .f32) (main_arg7 : FVec F S25x256 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg4 main_arg5 main_arg6 main_arg7 main_v13 main_v16
-- ==== Kernel.lean ====
abbrev S4x256x768 : Shape := ⟨3, ![4, 256, 768]⟩
abbrev S256x768 : Shape := ⟨2, ![256, 768]⟩
abbrev S256 : Shape := ⟨1, ![256]⟩
abbrev S256x512 : Shape := ⟨2, ![256, 512]⟩
abbrev S25x256 : Shape := ⟨2, ![25, 256]⟩
abbrev S256x256 : Shape := ⟨2, ![256, 256]⟩
abbrev S1x256 : Shape := ⟨2, ![1, 256]⟩
abbrev S4x256x256 : Shape := ⟨3, ![4, 256, 256]⟩
abbrev S1x256x768 : Shape := ⟨3, ![1, 256, 768]⟩
abbrev S1x256x256 : Shape := ⟨3, ![1, 256, 256]⟩
abbrev S4x256x25x256 : Shape := ⟨4, ![4, 256, 25, 256]⟩
abbrev S1x128x256 : Shape := ⟨3, ![1, 128, 256]⟩
abbrev S1x128x25x256 : Shape := ⟨4, ![1, 128, 25, 256]⟩
abbrev S1x16x256 : Shape := ⟨3, ![1, 16, 256]⟩
abbrev S16x256 : Shape := ⟨2, ![16, 256]⟩
abbrev S16x1x256 : Shape := ⟨3, ![16, 1, 256]⟩
abbrev S16x256x256 : Shape := ⟨3, ![16, 256, 256]⟩
abbrev S4096x256 : Shape := ⟨2, ![4096, 256]⟩
abbrev S4096x25 : Shape := ⟨2, ![4096, 25]⟩
abbrev S16x256x25 : Shape := ⟨3, ![16, 256, 25]⟩
abbrev S16x25x256 : Shape := ⟨3, ![16, 25, 256]⟩
abbrev S1x16x25x256 : Shape := ⟨4, ![1, 16, 25, 256]⟩

abbrev nBuf : Space → Nat
  | .hbm => 16
  | .vmem => 20
  | .smem => 0
  | _ => 0

abbrev bufTy : (tb : Table) → Fin (tcTables nBuf tb) → BufTy
  | .hbm, ⟨0, _⟩ => ⟨S4x256x768, .f32⟩
  | .hbm, ⟨1, _⟩ => ⟨S256x768, .f32⟩
  | .hbm, ⟨2, _⟩ => ⟨S256, .f32⟩
  | .hbm, ⟨3, _⟩ => ⟨S256x768, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S25x256, .f32⟩
  | .hbm, ⟨8, _⟩ => ⟨S256x256, .f32⟩
  | .hbm, ⟨9, _⟩ => ⟨S256x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S4x256x256, .bf16⟩
  | .hbm, ⟨14, _⟩ => ⟨S4x256x256, .bf16⟩
  | .hbm, ⟨15, _⟩ => ⟨S4x256x25x256, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S1x256, .f32⟩
  | .local _ .vmem, ⟨4, _⟩ => ⟨S256x768, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x256x256, .bf16⟩
  | .local _ .vmem, ⟨16, _⟩ => ⟨S1x256x256, .bf16⟩
  | .local _ .vmem, ⟨17, _⟩ => ⟨S25x256, .f32⟩
  | .local _ .vmem, ⟨18, _⟩ => ⟨S1x128x25x256, .f32⟩
  | .local _ .vmem, ⟨19, _⟩ => ⟨S1x128x25x256, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 2], ![false, false]⟩

@[reducible] def k1_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k1_mult1 (k1_t1 : Fin k1_t1_loop.trips) : BitVec 32 :=
  let c0_i32_6 : BitVec 32 := 0#32
  let c0_i32 : BitVec 32 := 0#32
  let c1_i32 : BitVec 32 := 1#32
  let arg6 : BitVec 32 := Scf.iv c0_i32 c1_i32 k1_t1
  let c1_i32_5 : BitVec 32 := 1#32
  let v5 : BitVec 32 := Scalar.muli arg6 c1_i32_5
  let v6 : BitVec 32 := Scalar.addi c0_i32_6 v5
  let c16_i32 : BitVec 32 := 16#32
  let v7 : BitVec 32 := Scalar.muli v6 c16_i32
  v7
def k1_off1 (k1_t1 : Fin k1_t1_loop.trips) : Fin 3 → Nat :=
  let c0_7 : Index := 0#32
  let c0_i32_6 : BitVec 32 := 0#32
  let c0_i32 : BitVec 32 := 0#32
  let c1_i32 : BitVec 32 := 1#32
  let arg6 : BitVec 32 := Scf.iv c0_i32 c1_i32 k1_t1
  let c1_i32_5 : BitVec 32 := 1#32
  let v5 : BitVec 32 := Scalar.muli arg6 c1_i32_5
  let v6 : BitVec 32 := Scalar.addi c0_i32_6 v5
  let c16_i32 : BitVec 32 := 16#32
  let v7 : BitVec 32 := Scalar.muli v6 c16_i32
  let v8 : BitVec 32 := v7
  let v9 : Index := Scalar.indexCast v8
  let c0_8 : Index := 0#32
  ![0, v9.toNat, 0]
def k1_off2 (k1_t1 : Fin k1_t1_loop.trips) : Fin 4 → Nat :=
  let c0_10 : Index := 0#32
  let c0_i32_6 : BitVec 32 := 0#32
  let c0_i32 : BitVec 32 := 0#32
  let c1_i32 : BitVec 32 := 1#32
  let arg6 : BitVec 32 := Scf.iv c0_i32 c1_i32 k1_t1
  let c1_i32_5 : BitVec 32 := 1#32
  let v5 : BitVec 32 := Scalar.muli arg6 c1_i32_5
  let v6 : BitVec 32 := Scalar.addi c0_i32_6 v5
  let c16_i32 : BitVec 32 := 16#32
  let v7 : BitVec 32 := Scalar.muli v6 c16_i32
  let v8 : BitVec 32 := v7
  let v23 : Index := Scalar.indexCast v8
  let c0_11 : Index := 0#32
  let c0_12 : Index := 0#32
  ![0, v23.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S25x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x25x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S256x512_S256x256_0_0 : S256x512.Slices ![0, 0] S256x256
  slices_S256x512_S256x256_0_256 : S256x512.Slices ![0, 256] S256x256
  shapeCasts_S256_S1x256 : S256.ShapeCasts S1x256
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S256x768_S256x768_0_0 : ∀ a, (![0, 0] : Fin 2 → Nat) a + S256x768.size a ≤ S256x768.size a
  h_S256x768 : 0 < S256x768.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  inb_S25x256_S25x256_0_0 : ∀ a, (![0, 0] : Fin 2 → Nat) a + S25x256.size a ≤ S25x256.size a
  h_S25x256 : 0 < S25x256.numel
  h_S1x16x256 : 0 < S1x16x256.numel
  shapeCasts_S1x16x256_S16x256 : S1x16x256.ShapeCasts S16x256
  shapeCasts_S16x256_S16x1x256 : S16x256.ShapeCasts S16x1x256
  broadcasts_S16x1x256_S16x256x256 : S16x1x256.Broadcasts S16x256x256
  broadcasts_S1x256x256_S16x256x256 : S1x256x256.Broadcasts S16x256x256
  shapeCasts_S16x256x256_S4096x256 : S16x256x256.ShapeCasts S4096x256
  shapeCasts_S4096x25_S16x256x25 : S4096x25.ShapeCasts S16x256x25
  transposes_S16x256x25_p0_2_1_S16x25x256 : S16x256x25.Transposes [0, 2, 1] S16x25x256
  h_S1x16x25x256 : 0 < S1x16x25x256.numel
  shapeCasts_S1x16x25x256_S16x25x256 : S1x16x25x256.ShapeCasts S16x25x256
  shapeCasts_S16x25x256_S1x16x25x256 : S16x25x256.ShapeCasts S1x16x25x256
  dot_S256x768_S256x768_S256x256_1_1_0_0_n_n_wf : DotDims.WF S256x768 S256x768 S256x256 [1] [1] [0] [0] [] []
  dot_S256x256_S256x256_S256x256_1_1_0_0_n_n_wf : DotDims.WF S256x256 S256x256 S256x256 [1] [1] [0] [0] [] []
  dot_S4096x256_S25x256_S4096x25_1_1_0_0_n_n_wf : DotDims.WF S4096x256 S25x256 S4096x25 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S4x256x768.size a
  hwx0_0 : ∀ i : grid0.Coords, EltTy.bits .f32 = 32 ∨ (Rect.block (s := S4x256x768) S1x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x256.size a ≤ S4x256x256.size a
  hwx0_8 : ∀ i : grid0.Coords, EltTy.bits .bf16 = 32 ∨ (Rect.block (s := S4x256x256) S1x256x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x256.size a ≤ S4x256x256.size a
  hwx0_9 : ∀ i : grid0.Coords, EltTy.bits .bf16 = 32 ∨ (Rect.block (s := S4x256x256) S1x256x256.size (cc0_transform_9 i) (hinb0_9 i)).WholeWords (EltTy.packing .bf16)
  hrank1 : 0 < grid1.rank
  k1_t1_ok : k1_t1_loop.OK
  k1_mult1_dvd : ∀ k1_t1 : Fin k1_t1_loop.trips, 16 ∣ (k1_mult1 k1_t1).toNat
  k1_off1_inb : ∀ k1_t1 : Fin k1_t1_loop.trips, ∀ a, (k1_off1 k1_t1) a + S1x16x256.size a ≤ S1x128x256.size a
  k1_off2_inb : ∀ k1_t1 : Fin k1_t1_loop.trips, ∀ a, (k1_off2 k1_t1) a + S1x16x25x256.size a ≤ S1x128x25x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x256.size a ≤ S4x256x256.size a
  hwx1_0 : ∀ i : grid1.Coords, EltTy.bits .bf16 = 32 ∨ (Rect.block (s := S4x256x256) S1x128x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S4x256x256.size a
  hwx1_1 : ∀ i : grid1.Coords, EltTy.bits .bf16 = 32 ∨ (Rect.block (s := S4x256x256) S1x256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S25x256.size a ≤ S25x256.size a
  hwx1_2 : ∀ i : grid1.Coords, EltTy.bits .f32 = 32 ∨ (Rect.block (s := S25x256) S25x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x25x256.size a ≤ S4x256x25x256.size a
  hwx1_3 : ∀ i : grid1.Coords, EltTy.bits .f32 = 32 ∨ (Rect.block (s := S4x256x25x256) S1x128x25x256.size (cc1_transform_3 i) (hinb1_3 i)).WholeWords (EltTy.packing .f32)

variable [Facts₀]

def dot_S256x768_S256x768_S256x256_1_1_0_0_n_n : DotDims S256x768 S256x768 S256x256 where
  lhsContracting := [1]
  rhsContracting := [1]
  lhsNonContracting := [0]
  rhsNonContracting := [0]
  lhsBatch := []
  rhsBatch := []
  wf := dot_S256x768_S256x768_S256x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S4096x256_S25x256_S4096x25_1_1_0_0_n_n : DotDims S4096x256 S25x256 S4096x25 where
  lhsContracting := [1]
  rhsContracting := [1]
  lhsNonContracting := [0]
  rhsNonContracting := [0]
  lhsBatch := []
  rhsBatch := []
  wf := dot_S4096x256_S25x256_S4096x25_1_1_0_0_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1x256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1x256x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5_0) S1x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S25x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128x25x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x256x768 : Shape := ⟨3, ![4, 256, 768]⟩
abbrev S256x768 : Shape := ⟨2, ![256, 768]⟩
abbrev S256 : Shape := ⟨1, ![256]⟩
abbrev S256x512 : Shape := ⟨2, ![256, 512]⟩
abbrev S25x256 : Shape := ⟨2, ![25, 256]⟩
abbrev S4x256x256 : Shape := ⟨3, ![4, 256, 256]⟩
abbrev S1x1x256 : Shape := ⟨3, ![1, 1, 256]⟩
abbrev S_ : Shape := ⟨0, ![]⟩
abbrev S256x256 : Shape := ⟨2, ![256, 256]⟩
abbrev S4x256x1x256 : Shape := ⟨4, ![4, 256, 1, 256]⟩
abbrev S4x1x256x256 : Shape := ⟨4, ![4, 1, 256, 256]⟩
abbrev S4x256x256x256 : Shape := ⟨4, ![4, 256, 256, 256]⟩
abbrev S4x256x256x25 : Shape := ⟨4, ![4, 256, 256, 25]⟩
abbrev S4x256x25x256 : Shape := ⟨4, ![4, 256, 25, 256]⟩

abbrev nBuf : Space → Nat
  | .hbm => 39
  | .vmem => 0
  | .smem => 0
  | _ => 0

abbrev bufTy : (tb : Table) → Fin (tcTables nBuf tb) → BufTy
  | .hbm, ⟨0, _⟩ => ⟨S4x256x768, .f32⟩
  | .hbm, ⟨1, _⟩ => ⟨S256x768, .f32⟩
  | .hbm, ⟨2, _⟩ => ⟨S256, .f32⟩
  | .hbm, ⟨3, _⟩ => ⟨S256x768, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S25x256, .f32⟩
  | .hbm, ⟨8, _⟩ => ⟨S4x256x256, .f32⟩
  | .hbm, ⟨9, _⟩ => ⟨S1x1x256, .f32⟩
  | .hbm, ⟨10, _⟩ => ⟨S4x256x256, .f32⟩
  | .hbm, ⟨11, _⟩ => ⟨S4x256x256, .f32⟩
  | .hbm, ⟨12, _⟩ => ⟨S_, .f32⟩
  | .hbm, ⟨13, _⟩ => ⟨S4x256x256, .f32⟩
  | .hbm, ⟨14, _⟩ => ⟨S4x256x256, .f32⟩
  | .hbm, ⟨15, _⟩ => ⟨S4x256x256, .f32⟩
  | .hbm, ⟨16, _⟩ => ⟨S1x1x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S256x256, .f32⟩
  | .hbm, ⟨23, _⟩ => ⟨S256x256, .f32⟩
  | .hbm, ⟨24, _⟩ => ⟨S4x256x256, .f32⟩
  | .hbm, ⟨25, _⟩ => ⟨S4x256x256, .f32⟩
  | .hbm, ⟨26, _⟩ => ⟨S1x1x256, .f32⟩
  | .hbm, ⟨27, _⟩ => ⟨S4x256x256, .f32⟩
  | .hbm, ⟨28, _⟩ => ⟨S4x256x256, .f32⟩
  | .hbm, ⟨29, _⟩ => ⟨S4x256x1x256, .f32⟩
  | .hbm, ⟨30, _⟩ => ⟨S4x1x256x256, .f32⟩
  | .hbm, ⟨31, _⟩ => ⟨S4x256x256x256, .f32⟩
  | .hbm, ⟨32, _⟩ => ⟨S4x256x256x256, .f32⟩
  | .hbm, ⟨33, _⟩ => ⟨S4x256x256x256, .f32⟩
  | .hbm, ⟨34, _⟩ => ⟨S_, .f32⟩
  | .hbm, ⟨35, _⟩ => ⟨S4x256x256x256, .f32⟩
  | .hbm, ⟨36, _⟩ => ⟨S4x256x256x256, .f32⟩
  | .hbm, ⟨37, _⟩ => ⟨S4x256x256x25, .f32⟩
  | .hbm, ⟨38, _⟩ => ⟨S4x256x25x256, .f32⟩
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call2_cst : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x256x256_0_1_2 : S1x1x256.BroadcastsInDim S4x256x256 (![0, 1, 2] : Fin 3 → Fin S4x256x256.rank)
  bcast_S_S4x256x256 : S_.BroadcastsInDim S4x256x256 (![] : Fin 0 → Fin S4x256x256.rank)
  slices_S256x512_S256x256_0_0 : S256x512.Slices ![0, 0] S256x256
  slices_S256x512_S256x256_0_256 : S256x512.Slices ![0, 256] S256x256
  bcast_S4x256x256_S4x256x1x256_0_1_3 : S4x256x256.BroadcastsInDim S4x256x1x256 (![0, 1, 3] : Fin 3 → Fin S4x256x1x256.rank)
  bcast_S4x256x256_S4x1x256x256_0_2_3 : S4x256x256.BroadcastsInDim S4x1x256x256 (![0, 2, 3] : Fin 3 → Fin S4x1x256x256.rank)
  bcast_S4x256x1x256_S4x256x256x256_0_1_2_3 : S4x256x1x256.BroadcastsInDim S4x256x256x256 (![0, 1, 2, 3] : Fin 4 → Fin S4x256x256x256.rank)
  bcast_S4x1x256x256_S4x256x256x256_0_1_2_3 : S4x1x256x256.BroadcastsInDim S4x256x256x256 (![0, 1, 2, 3] : Fin 4 → Fin S4x256x256x256.rank)
  bcast_S_S4x256x256x256 : S_.BroadcastsInDim S4x256x256x256 (![] : Fin 0 → Fin S4x256x256x256.rank)
  transposes_S4x256x256x25_S4x256x25x256_0_1_3_2 : S4x256x256x25.Transposes [0, 1, 3, 2] S4x256x25x256
  dot_S4x256x768_S256x768_S4x256x256_2_1_01_0_n_n_wf : DotDims.WF S4x256x768 S256x768 S4x256x256 [2] [1] [0, 1] [0] [] []
  dot_S4x256x256_S256x256_S4x256x256_2_1_01_0_n_n_wf : DotDims.WF S4x256x256 S256x256 S4x256x256 [2] [1] [0, 1] [0] [] []
  dot_S4x256x256x256_S25x256_S4x256x256x25_3_1_012_0_n_n_wf : DotDims.WF S4x256x256x256 S25x256 S4x256x256x25 [3] [1] [0, 1, 2] [0] [] []

variable [Facts₀]

def dot_S4x256x768_S256x768_S4x256x256_2_1_01_0_n_n : DotDims S4x256x768 S256x768 S4x256x256 where
  lhsContracting := [2]
  rhsContracting := [1]
  lhsNonContracting := [0, 1]
  rhsNonContracting := [0]
  lhsBatch := []
  rhsBatch := []
  wf := dot_S4x256x768_S256x768_S4x256x256_2_1_01_0_n_n_wf
def dot_S4x256x256_S256x256_S4x256x256_2_1_01_0_n_n : DotDims S4x256x256 S256x256 S4x256x256 where
  lhsContracting := [2]
  rhsContracting := [1]
  lhsNonContracting := [0, 1]
  rhsNonContracting := [0]
  lhsBatch := []
  rhsBatch := []
  wf := dot_S4x256x256_S256x256_S4x256x256_2_1_01_0_n_n_wf
def dot_S4x256x256x256_S25x256_S4x256x256x25_3_1_012_0_n_n : DotDims S4x256x256x256 S25x256 S4x256x256x25 where
  lhsContracting := [3]
  rhsContracting := [1]
  lhsNonContracting := [0, 1, 2]
  rhsNonContracting := [0]
  lhsBatch := []
  rhsBatch := []
  wf := dot_S4x256x256x256_S25x256_S4x256x256x25_3_1_012_0_n_n_wf

class Facts : Prop extends Facts₀ where

variable [Facts]
-- ==== Proof.Spec.lean ====
/-
  The function both programs compute, over the extended reals, written once and free of either program.

  A position `l` of batch entry `p` carries a row `x[p,l,:]` of 768 numbers. Two ReLU layers turn it into two rows of 256
  hidden units, `hid`; each hidden row is mapped linearly by one half of the 256 x 512 matrix `fc2_w` (its columns 0..255
  for the first, 256..511 for the second, which also receives the bias), giving the rows `s2[p,l,:]` and `t2[p,l,:]`.
  The result pairs every position `i` with every position `j` of the same batch entry:
  `out[p,i,n,j] = sum over k of max (s2[p,i,k] + t2[p,j,k]) 0 * fc3_w[n,k]`.
  Only sums, products and maxima of extended reals occur, each in one fixed arrangement, so nothing here needs the
  inputs to be finite.
-/
import Idealize.ShloMosaic.PureOps.Ideal
import Idealize.ShloMosaic.Lib.ValueIdx

noncomputable section

namespace Cert.PairSpec

open Idealize.ShloMosaic Idealize.ShloMosaic.ValueIdx

/-- One hidden unit of a ReLU layer on a row `xr`: the larger of `<xr, w o> + b o` and zero. -/
def hid (xr : Fin 768 → EReal) (w : Fin 256 → Fin 768 → EReal) (b : Fin 256 → EReal) (o : Fin 256) : EReal :=
  max ((∑ h : Fin 768, xr h * w o h) + b o) 0

/-- One output of a linear map on a hidden row: `<hr, w o>`. -/
def lin (hr : Fin 256 → EReal) (w : Fin 256 → Fin 256 → EReal) (o : Fin 256) : EReal :=
  ∑ k : Fin 256, hr k * w o k

/-- The pairing of two rows against one row of weights: `sum over k of max (s k + t k) 0 * w k`. -/
def pair (s t w : Fin 256 → EReal) : EReal :=
  ∑ k : Fin 256, max (s k + t k) 0 * w k

/-- Column `k` of the left half of a 512-column matrix. -/
abbrev colL (k : Fin 256) : Fin 512 := ⟨k.val, by omega⟩
/-- Column `k` of the right half of a 512-column matrix. -/
abbrev colR (k : Fin 256) : Fin 512 := ⟨256 + k.val, by omega⟩

/-- The argument arrays' types, named for brevity. -/
abbrev AX := (⟨3, ![4, 256, 768]⟩ : Shape).Idx → EReal
abbrev AW := (⟨2, ![256, 768]⟩ : Shape).Idx → EReal
abbrev AB := (⟨1, ![256]⟩ : Shape).Idx → EReal
abbrev AF := (⟨2, ![256, 512]⟩ : Shape).Idx → EReal
abbrev AC := (⟨2, ![25, 256]⟩ : Shape).Idx → EReal

/-- The hidden row of position `(p, l)` of `x` under the layer with weights `w` and bias `b`. -/
def hrow (x : AX) (w : AW) (b : AB) (p : Fin 4) (l : Fin 256) : Fin 256 → EReal :=
  hid (fun h => x (ix3 p l h)) (fun o h => w (ix2 o h)) (fun o => b (ix1 o))

/-- `s2[p,l,o]`: the first hidden row through the left half of `fc2_w`, no bias. -/
def s2 (x0 : AX) (x1 : AW) (x2 : AB) (x5 : AF) (p : Fin 4) (l o : Fin 256) : EReal :=
  lin (hrow x0 x1 x2 p l) (fun o k => x5 (ix2 o (colL k))) o

/-- `t2[p,l,o]`: the second hidden row through the right half of `fc2_w`, plus the bias. -/
def t2 (x0 : AX) (x3 : AW) (x4 : AB) (x5 : AF) (x6 : AB) (p : Fin 4) (l o : Fin 256) : EReal :=
  lin (hrow x0 x3 x4 p l) (fun o k => x5 (ix2 o (colR k))) o + x6 (ix1 o)

/-- The pairing stage on any two arrays `S`, `T` of rows: entry `(p, i, n, j)` pairs row `i` of `S` with row `j` of `T`
    against row `n` of `fc3_w`. -/
def out (S T : Fin 4 → Fin 256 → Fin 256 → EReal) (x7 : AC) (p : Fin 4) (i : Fin 256) (n : Fin 25) (j : Fin 256) : EReal :=
  pair (S p i) (T p j) (fun k => x7 (ix2 n k))

/-- The whole result, as one function of the eight argument arrays, index by index. -/
def G (x0 : AX) (x1 : AW) (x2 : AB) (x3 : AW) (x4 : AB) (x5 : AF) (x6 : AB) (x7 : AC) :
    (⟨4, ![4, 256, 25, 256]⟩ : Shape).Idx → EReal := fun y =>
  out (s2 x0 x1 x2 x5) (t2 x0 x3 x4 x5 x6) x7 (y 0) (y 1) (y 2) (y 3)

end Cert.PairSpec

end
-- ==== Proof.RefValue.lean ====
/-
  The reference program computes the specification.

  Read one operation at a time, the reference forms for every position `(p, l)` two hidden rows: hidden unit `o` is the
  larger of `<x[p,l,:], w[o,:]> + b[o]` and zero, once with the first layer's weights and bias and once with the second's.
  The first hidden row is contracted with columns `0..255` of `fc2_w`, the second with columns `256..511` and the bias is
  added: these are the rows `s2[p,l,:]` and `t2[p,l,:]` of the specification. Both are then repeated along a new axis,
  so that entry `(p, i, j, k)` of the sum holds `s2[p,i,k] + t2[p,j,k]`; the larger of that and zero is contracted over
  `k` with row `n` of `fc3_w`, and the last two axes are exchanged, which puts the value paired from positions `i` and
  `j` against row `n` at `(p, i, n, j)`. Every step reads its operands at an index computed from the result's index; the
  lemmas below name those indices by their coordinates, after which each stage is the specification's formula as written.
-/
import proofs.«174367_j39779987096206_2_alg».proof.Proof.Gen.ReferenceIdeal.Read
import proofs.«174367_j39779987096206_2_alg».proof.Proof.Spec
import Idealize.ShloMosaic.Lib.ValueIdx
import Idealize.ShloMosaic.PureOps.Ideal.Laws

noncomputable section

namespace Cert.PairRef

open Cert.ReferenceIdeal Cert.ReferenceIdeal.Read Idealize.ShloMosaic Idealize.ShloMosaic.ValueIdx

variable (x0 : (⟨S4x256x768, .f32⟩ : BufTy).Contents (Elt Ideal))
variable (x1 : (⟨S256x768, .f32⟩ : BufTy).Contents (Elt Ideal))
variable (x2 : (⟨S256, .f32⟩ : BufTy).Contents (Elt Ideal))
variable (x3 : (⟨S256x768, .f32⟩ : BufTy).Contents (Elt Ideal))
variable (x4 : (⟨S256, .f32⟩ : BufTy).Contents (Elt Ideal))
variable (x5 : (⟨S256x512, .f32⟩ : BufTy).Contents (Elt Ideal))
variable (x6 : (⟨S256, .f32⟩ : BufTy).Contents (Elt Ideal))
variable (x7 : (⟨S25x256, .f32⟩ : BufTy).Contents (Elt Ideal))

/-! ## The hidden rows -/

/-- The first layer's contraction reads `x` at `(p, l, h)`. -/
theorem lidx_v0 (p : Fin 4) (l o : Fin 256) (h : Fin 768) : lidx_main_v0 (ix3 p l o) h = ix3 p l h :=
  funext fun a => by match a with | ⟨0, _⟩ => rfl | ⟨1, _⟩ => rfl | ⟨2, _⟩ => rfl
/-- The first layer's contraction reads the weights at `(o, h)`. -/
theorem ridx_v0 (p : Fin 4) (l o : Fin 256) (h : Fin 768) : ridx_main_v0 (ix3 p l o) h = ix2 o h :=
  funext fun a => by match a with | ⟨0, _⟩ => rfl | ⟨1, _⟩ => rfl
/-- The first layer's bias, repeated over positions, is read at `o`. -/
theorem bias_v2 (p : Fin 4) (l o : Fin 256) : idx_main_v1 (idx_main_v2 (ix3 p l o)) = ix1 o :=
  funext fun a => by match a with | ⟨0, _⟩ => rfl

/-- The first hidden row, unit by unit. -/
theorem hid1_at (p : Fin 4) (l o : Fin 256) :
    val_main_v4 (F := Ideal) x0 x1 x2 (ix3 p l o) = Cert.PairSpec.hrow x0 x1 x2 p l o := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx_v0, ridx_v0, bias_v2]
  rfl

/-- The second layer's contraction reads `x` at `(p, l, h)`. -/
theorem lidx_v5 (p : Fin 4) (l o : Fin 256) (h : Fin 768) : lidx_main_v5 (ix3 p l o) h = ix3 p l h :=
  funext fun a => by match a with | ⟨0, _⟩ => rfl | ⟨1, _⟩ => rfl | ⟨2, _⟩ => rfl
/-- The second layer's contraction reads the weights at `(o, h)`. -/
theorem ridx_v5 (p : Fin 4) (l o : Fin 256) (h : Fin 768) : ridx_main_v5 (ix3 p l o) h = ix2 o h :=
  funext fun a => by match a with | ⟨0, _⟩ => rfl | ⟨1, _⟩ => rfl
/-- The second layer's bias, repeated over positions, is read at `o`. -/
theorem bias_v7 (p : Fin 4) (l o : Fin 256) : idx_main_v6 (idx_main_v7 (ix3 p l o)) = ix1 o :=
  funext fun a => by match a with | ⟨0, _⟩ => rfl

/-- The second hidden row, unit by unit. -/
theorem hid2_at (p : Fin 4) (l o : Fin 256) :
    val_main_v9 (F := Ideal) x0 x3 x4 (ix3 p l o) = Cert.PairSpec.hrow x0 x3 x4 p l o := by
  rw [val_main_v9_apply, val_main_v8_apply, val_main_v5_apply, val_main_v7_apply, val_main_v6_apply,
    val_main_call1_v0_apply, val_main_call1_cst_apply]
  simp only [Ideal.maximumf_def, Ideal.addf_def, Ideal.ofBits_def, Ideal.ofBits_zero_f32, lidx_v5, ridx_v5, bias_v7]
  rfl

/-! ## The two linear maps -/

/-- The left map contracts hidden unit `k` of position `(p, l)` … -/
theorem lidx_v12 (p : Fin 4) (l o k : Fin 256) : lidx_main_v12 (ix3 p l o) k = ix3 p l k :=
  funext fun a => by match a with | ⟨0, _⟩ => rfl | ⟨1, _⟩ => rfl | ⟨2, _⟩ => rfl
/-- … with entry `(o, k)` of the left half of `fc2_w`, … -/
theorem ridx_v12 (p : Fin 4) (l o k : Fin 256) : ridx_main_v12 (ix3 p l o) k = ix2 o k :=
  funext fun a => by match a with | ⟨0, _⟩ => rfl | ⟨1, _⟩ => rfl
/-- … which is column `k` of the whole matrix. -/
theorem slice_v10 (o k : Fin 256) : idx_main_v10 (ix2 o k) = ix2 o (Cert.PairSpec.colL k) :=
  funext fun a => by match a with | ⟨0, _⟩ => rfl | ⟨1, _⟩ => rfl

/-- `s2` at a point given by its coordinates. -/
theorem s2_at (p : Fin 4) (l o : Fin 256) :
    val_main_v12 (F := Ideal) x0 x1 x2 x5 (ix3 p l o) = Cert.PairSpec.s2 x0 x1 x2 x5 p l o := by
  rw [val_main_v12_apply]
  simp only [lidx_v12, ridx_v12, hid1_at, val_main_v10_apply, slice_v10]
  rfl

/-- The right map contracts hidden unit `k` of position `(p, l)` … -/
theorem lidx_v13 (p : Fin 4) (l o k : Fin 256) : lidx_main_v13 (ix3 p l o) k = ix3 p l k :=
  funext fun a => by match a with | ⟨0, _⟩ => rfl | ⟨1, _⟩ => rfl | ⟨2, _⟩ => rfl
/-- … with entry `(o, k)` of the right half of `fc2_w`, … -/
theorem ridx_v13 (p : Fin 4) (l o k : Fin 256) : ridx_main_v13 (ix3 p l o) k = ix2 o k :=
  funext fun a => by match a with | ⟨0, _⟩ => rfl | ⟨1, _⟩ => rfl
/-- … which is column `256 + k` of the whole matrix. -/
theorem slice_v11 (o k : Fin 256) : idx_main_v11 (ix2 o k) = ix2 o (Cert.PairSpec.colR k) :=
  funext fun a => by match a with | ⟨0, _⟩ => rfl | ⟨1, _⟩ => rfl
/-- The last bias, repeated over positions, is read at `o`. -/
theorem bias_v15 (p : Fin 4) (l o : Fin 256) : idx_main_v14 (idx_main_v15 (ix3 p l o)) = ix1 o :=
  funext fun a => by match a with | ⟨0, _⟩ => rfl

/-- `t2` at a point given by its coordinates. -/
theorem t2_at (p : Fin 4) (l o : Fin 256) :
    val_main_v16 (F := Ideal) x0 x3 x4 x5 x6 (ix3 p l o) = Cert.PairSpec.t2 x0 x3 x4 x5 x6 p l o := by
  rw [val_main_v16_apply, val_main_v13_apply, val_main_v15_apply, val_main_v14_apply]
  simp only [Ideal.addf_def, lidx_v13, ridx_v13, hid2_at, val_main_v11_apply, slice_v11, bias_v15]
  rfl

/-- The left linear map of the reference is `s2`. -/
theorem s2_eq (i : S4x256x256.Idx) :
    val_main_v12 (F := Ideal) x0 x1 x2 x5 i = Cert.PairSpec.s2 x0 x1 x2 x5 (i 0) (i 1) (i 2) := by
  obtain ⟨p, l, o, rfl⟩ : ∃ (p : Fin 4) (l o : Fin 256), i = ix3 p l o := ⟨i 0, i 1, i 2, eq_ix3 i⟩
  exact s2_at x0 x1 x2 x5 p l o

/-- The right linear map of the reference, with its bias, is `t2`. -/
theorem t2_eq (i : S4x256x256.Idx) :
    val_main_v16 (F := Ideal) x0 x3 x4 x5 x6 i = Cert.PairSpec.t2 x0 x3 x4 x5 x6 (i 0) (i 1) (i 2) := by
  obtain ⟨p, l, o, rfl⟩ : ∃ (p : Fin 4) (l o : Fin 256), i = ix3 p l o := ⟨i 0, i 1, i 2, eq_ix3 i⟩
  exact t2_at x0 x3 x4 x5 x6 p l o

/-! ## The pairing -/

/-- The repeated `s2` at `(p, i, j, k)` is read at `(p, i, k)`: the new axis `j` is ignored. -/
theorem idx_s (p : Fin 4) (i j k : Fin 256) : idx_main_v17 (idx_main_v19 (ix4 p i j k)) = ix3 p i k :=
  funext fun a => by match a with | ⟨0, _⟩ => rfl | ⟨1, _⟩ => rfl | ⟨2, _⟩ => rfl
/-- The repeated `t2` at `(p, i, j, k)` is read at `(p, j, k)`: the new axis `i` is ignored. -/
theorem idx_t (p : Fin 4) (i j k : Fin 256) : idx_main_v18 (idx_main_v20 (ix4 p i j k)) = ix3 p j k :=
  funext fun a => by match a with | ⟨0, _⟩ => rfl | ⟨1, _⟩ => rfl | ⟨2, _⟩ => rfl

/-- The summand before the last contraction: the larger of `s2[p,i,k] + t2[p,j,k]` and zero. -/
theorem pre_at (p : Fin 4) (i j k : Fin 256) :
    val_main_v22 (F := Ideal) x0 x1 x2 x3 x4 x5 x6 (ix4 p i j k)
      = max (Cert.PairSpec.s2 x0 x1 x2 x5 p i k + Cert.PairSpec.t2 x0 x3 x4 x5 x6 p j k) 0 := by
  rw [val_main_v22_apply, val_main_v21_apply, val_main_v19_apply, val_main_v17_apply, val_main_v20_apply,
    val_main_v18_apply, val_main_call2_v0_apply, val_main_call2_cst_apply, idx_s, idx_t, s2_at, t2_at]
  simp only [Ideal.maximumf_def, Ideal.addf_def, Ideal.ofBits_def, Ideal.ofBits_zero_f32]

/-- The exchange of the last two axes reads `(p, i, n, j)` at `(p, i, j, n)`. -/
theorem idx_v24 (p : Fin 4) (i : Fin 256) (n : Fin 25) (j : Fin 256) : idx_main_v24 (ix4 p i n j) = ix4 p i j n :=
  funext fun a => by match a with | ⟨0, _⟩ => rfl | ⟨1, _⟩ => rfl | ⟨2, _⟩ => rfl | ⟨3, _⟩ => rfl
/-- The last contraction reads its summand at `(p, i, j, k)` … -/
theorem lidx_v23 (p : Fin 4) (i j : Fin 256) (n : Fin 25) (k : Fin 256) : lidx_main_v23 (ix4 p i j n) k = ix4 p i j k :=
  funext fun a => by match a with | ⟨0, _⟩ => rfl | ⟨1, _⟩ => rfl | ⟨2, _⟩ => rfl | ⟨3, _⟩ => rfl
/-- … and `fc3_w` at `(n, k)`. -/
theorem ridx_v23 (p : Fin 4) (i j : Fin 256) (n : Fin 25) (k : Fin 256) : ridx_main_v23 (ix4 p i j n) k = ix2 n k :=
  funext fun a => by match a with | ⟨0, _⟩ => rfl | ⟨1, _⟩ => rfl

/-- The result at a point given by its coordinates. -/
theorem ref_at (p : Fin 4) (i : Fin 256) (n : Fin 25) (j : Fin 256) :
    val_main_v24 (F := Ideal) x0 x1 x2 x3 x4 x5 x6 x7 (ix4 p i n j)
      = Cert.PairSpec.out (Cert.PairSpec.s2 x0 x1 x2 x5) (Cert.PairSpec.t2 x0 x3 x4 x5 x6) x7 p i n j := by
  rw [val_main_v24_apply, idx_v24, val_main_v23_apply]
  simp only [lidx_v23, ridx_v23, pre_at]
  rfl

/-- The reference's result is the specification. -/
theorem ref_eq :
    val_main_v24 (F := Ideal) x0 x1 x2 x3 x4 x5 x6 x7 = Cert.PairSpec.G x0 x1 x2 x3 x4 x5 x6 x7 := by
  funext y
  obtain ⟨p, i, n, j, rfl⟩ : ∃ (p : Fin 4) (i : Fin 256) (n : Fin 25) (j : Fin 256), y = ix4 p i n j :=
    ⟨y 0, y 1, y 2, y 3, eq_ix4 y⟩
  exact ref_at x0 x1 x2 x3 x4 x5 x6 x7 p i n j

end Cert.PairRef

end
-- ==== Proof.KRun.lean ====
/-
  The idealized kernel's run with its result named.

  @main is a stretch of host operations followed by two kernel regions. Every weakly fair execution terminates without a
  fault, and the final memory holds, in every buffer that outlives @main, the contents obtained by folding the segments
  over the launch memory: the host stretch's results, then the first region's arrays at what its write-backs leave, then
  the second region's. Here that final state is read at the result buffer as well as at the arguments: the result holds
  whatever the fold `W3` holds there, and the arguments are as launched. The library's theorem for a program cut into
  host and region segments is applied to the generated segments; only the reading of the final state is new.
-/
import proofs.«174367_j39779987096206_2_alg».proof.Proof.Gen.KernelIdeal.Frame

set_option maxRecDepth 16384

noncomputable section

namespace Cert.KernelIdeal.PairRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the folded contents
    `W3` and the argument arrays as launched. -/
theorem run_named : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.PairRun

end
-- ==== Proof.Region0Pay.lean ====
/-
  The arithmetic of the first stage, at one output entry.

  One grid point of the first stage holds one batch entry: 256 rows of 768 numbers. Each row goes through a ReLU layer
  (a product against the 256 x 768 weights summed along the 768 axis, a bias row added, the maximum with zero taken) and
  the hidden row so obtained is mapped by a 256 x 256 matrix, again a product summed along the contracted axis; the
  second output adds one more bias row. Over the extended reals a change of float format is the identity and a
  block product into a zero accumulator is exactly the sum over the contracted axis, so entry (l, o) of what the body
  stores is the two nested sums the specification writes as lin (hid ...) — with a bias on the second output.
  The lemmas are stated over arbitrary blocks, with the coordinates l, o explicit.
-/
import proofs.«174367_j39779987096206_2_alg».proof.Proof.Gen.KernelIdeal.Skeleton
import proofs.«174367_j39779987096206_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PairK0

open Idealize.ShloMosaic Idealize.ShloMosaic.ValueIdx
open Cert.KernelIdeal Cert.KernelIdeal.Gen

/-! ## A block product into a zero accumulator, at an entry -/

/-- The row coordinate of either operand of the first product comes from the output entry. -/
theorem d768_lhs0 (i : S256x256.Idx) (q : dot_S256x768_S256x768_S256x256_1_1_0_0_n_n.contr.Idx) :
    (dot_S256x768_S256x768_S256x256_1_1_0_0_n_n.lhsIdx i q 0).val = (i 0).val := by
  unfold DotDims.lhsIdx
  rw [dif_neg (show ¬(0 : Fin S256x768.rank) ∈ dot_S256x768_S256x768_S256x256_1_1_0_0_n_n.lhsBatch by decide), dif_pos (show (0 : Fin S256x768.rank) ∈ dot_S256x768_S256x768_S256x256_1_1_0_0_n_n.lhsNonContracting by decide)]
  rfl
theorem d768_rhs0 (i : S256x256.Idx) (q : dot_S256x768_S256x768_S256x256_1_1_0_0_n_n.contr.Idx) :
    (dot_S256x768_S256x768_S256x256_1_1_0_0_n_n.rhsIdx i q 0).val = (i 1).val := by
  unfold DotDims.rhsIdx
  rw [dif_neg (show ¬(0 : Fin S256x768.rank) ∈ dot_S256x768_S256x768_S256x256_1_1_0_0_n_n.rhsBatch by decide), dif_pos (show (0 : Fin S256x768.rank) ∈ dot_S256x768_S256x768_S256x256_1_1_0_0_n_n.rhsNonContracting by decide)]
  rfl

/-- Rows of 768 against rows of 768: entry (l, o) is the sum over the shared axis. -/
theorem mm768_apply (a b : FVec Ideal S256x768 .bf16) (l o : Fin 256) :
    FloatOps.matmul dot_S256x768_S256x768_S256x256_1_1_0_0_n_n none a b (constant S256x256 .f32 0x00000000#32) (ix2 l o)
      = ∑ h : Fin 768, a (ix2 l h) * b (ix2 o h) := by
  rw [Ideal.matmul_constant_zero_apply, ← Equiv.sum_comp (ValueIdx.contrEquiv1 dot_S256x768_S256x768_S256x256_1_1_0_0_n_n 768 rfl rfl).symm]
  refine Finset.sum_congr rfl fun k _ => ?_
  have hk := ValueIdx.contrEquiv1_symm_val dot_S256x768_S256x768_S256x256_1_1_0_0_n_n 768 rfl rfl k
  have el : dot_S256x768_S256x768_S256x256_1_1_0_0_n_n.lhsIdx (ix2 l o) ((ValueIdx.contrEquiv1 dot_S256x768_S256x768_S256x256_1_1_0_0_n_n 768 rfl rfl).symm k) = ix2 l k := funext fun ax => Fin.ext (by
    match ax with
    | ⟨0, _⟩ => exact d768_lhs0 _ _
    | ⟨1, _⟩ => exact (dot_S256x768_S256x768_S256x256_1_1_0_0_n_n.lhsIdx_val_of_single rfl _ _).trans hk)
  have er : dot_S256x768_S256x768_S256x256_1_1_0_0_n_n.rhsIdx (ix2 l o) ((ValueIdx.contrEquiv1 dot_S256x768_S256x768_S256x256_1_1_0_0_n_n 768 rfl rfl).symm k) = ix2 o k := funext fun ax => Fin.ext (by
    match ax with
    | ⟨0, _⟩ => exact d768_rhs0 _ _
    | ⟨1, _⟩ => exact (dot_S256x768_S256x768_S256x256_1_1_0_0_n_n.rhsIdx_val_of_single rfl _ _).trans hk)
  rw [el, er]

/-- The same for the second product, rows of 256 against rows of 256. -/
theorem d256_lhs0 (i : S256x256.Idx) (q : dot_S256x256_S256x256_S256x256_1_1_0_0_n_n.contr.Idx) :
    (dot_S256x256_S256x256_S256x256_1_1_0_0_n_n.lhsIdx i q 0).val = (i 0).val := by
  unfold DotDims.lhsIdx
  rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
  rfl
theorem d256_rhs0 (i : S256x256.Idx) (q : dot_S256x256_S256x256_S256x256_1_1_0_0_n_n.contr.Idx) :
    (dot_S256x256_S256x256_S256x256_1_1_0_0_n_n.rhsIdx i q 0).val = (i 1).val := by
  unfold DotDims.rhsIdx
  rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
  rfl

/-- Rows of 256 against rows of 256: entry (l, o) is the sum over the shared axis. -/
theorem mm256_apply (a b : FVec Ideal S256x256 .bf16) (l o : Fin 256) :
    FloatOps.matmul dot_S256x256_S256x256_S256x256_1_1_0_0_n_n none a b (constant S256x256 .f32 0x00000000#32) (ix2 l o)
      = ∑ k : Fin 256, a (ix2 l k) * b (ix2 o k) := by
  rw [Ideal.matmul_constant_zero_apply, ← Equiv.sum_comp (ValueIdx.contrEquiv1 dot_S256x256_S256x256_S256x256_1_1_0_0_n_n 256 rfl rfl).symm]
  refine Finset.sum_congr rfl fun k _ => ?_
  have hk := ValueIdx.contrEquiv1_symm_val dot_S256x256_S256x256_S256x256_1_1_0_0_n_n 256 rfl rfl k
  have el : dot_S256x256_S256x256_S256x256_1_1_0_0_n_n.lhsIdx (ix2 l o) ((ValueIdx.contrEquiv1 dot_S256x256_S256x256_S256x256_1_1_0_0_n_n 256 rfl rfl).symm k) = ix2 l k := funext fun ax => Fin.ext (by
    match ax with
    | ⟨0, _⟩ => exact d256_lhs0 _ _
    | ⟨1, _⟩ => exact (dot_S256x256_S256x256_S256x256_1_1_0_0_n_n.lhsIdx_val_of_single rfl _ _).trans hk)
  have er : dot_S256x256_S256x256_S256x256_1_1_0_0_n_n.rhsIdx (ix2 l o) ((ValueIdx.contrEquiv1 dot_S256x256_S256x256_S256x256_1_1_0_0_n_n 256 rfl rfl).symm k) = ix2 o k := funext fun ax => Fin.ext (by
    match ax with
    | ⟨0, _⟩ => exact d256_rhs0 _ _
    | ⟨1, _⟩ => exact (dot_S256x256_S256x256_S256x256_1_1_0_0_n_n.rhsIdx_val_of_single rfl _ _).trans hk)
  rw [el, er]

/-! ## The hidden layer and the two stored blocks, at an entry -/

/-- The ReLU layer of one batch entry at (l, k): row l against row k of the weights, plus the bias at k, against zero. -/
theorem hid_apply (xb : Vec Ideal S1x256x768 .f32) (w : Vec Ideal S256x768 .f32) (b : Vec Ideal S1x256 .f32) (l k : Fin 256) :
    maximumf (addf (matmul dot_S256x768_S256x768_S256x256_1_1_0_0_n_n none (truncf .bf16 (k0_pay3 xb) bitsLt_bf16_f32)
          (truncf .bf16 w bitsLt_bf16_f32) (constant S256x256 .f32 0x00000000#32))
        (broadcastTo S256x256 (shapeCast S1x256 b shapeCasts_S1x256_S1x256) broadcasts_S1x256_S256x256))
      (broadcast S256x256 (Scalar.ofBits .f32 0x00000000#32)) (ix2 l k)
    = Cert.PairSpec.hid (fun h => xb (ix3 (0 : Fin 1) l h)) (fun o h => w (ix2 o h)) (fun o => b (ix2 (0 : Fin 1) o)) k := by
  rw [maximumf_apply, addf_apply, broadcast_apply]
  simp only [matmul]
  rw [mm768_apply, broadcastTo_1b_ab_apply, shapeCast_self]
  unfold Cert.PairSpec.hid
  refine congrArg₂ max (congrArg₂ (· + ·) (Finset.sum_congr rfl fun h _ => ?_) rfl) Ideal.ofBits_zero_f32
  rw [truncf_apply, truncf_apply]
  unfold k0_pay3
  exact congrArg (· * w (ix2 k h)) (shapeCast_1ab_ab_apply xb shapeCasts_S1x256x768_S256x768 l h)

/-- The first stored block at (l, o): the hidden row l through row o of the 256 x 256 matrix. -/
theorem pay_s (xb : Vec Ideal S1x256x768 .f32) (w1 : Vec Ideal S256x768 .f32) (b1 : Vec Ideal S1x256 .f32)
    (ws : Vec Ideal S256x256 .f32) (l o : Fin 256) :
    k0_pay1 (k0_pay4 xb w1 b1 ws) (ix3 (0 : Fin 1) l o)
      = Cert.PairSpec.lin (Cert.PairSpec.hid (fun h => xb (ix3 (0 : Fin 1) l h)) (fun o h => w1 (ix2 o h)) (fun o => b1 (ix2 (0 : Fin 1) o)))
          (fun o k => ws (ix2 o k)) o := by
  unfold k0_pay1
  refine (shapeCast_ab_1ab_apply _ shapeCasts_S256x256_S1x256x256 (0 : Fin 1) l o).trans ?_
  rw [truncf_apply]
  unfold k0_pay4
  simp only [matmul]
  rw [mm256_apply]
  unfold Cert.PairSpec.lin
  refine Finset.sum_congr rfl fun k _ => ?_
  rw [truncf_apply, truncf_apply]
  exact congrArg₂ (· * ·) (hid_apply xb w1 b1 l k) (congrFun (shapeCast_self ws shapeCasts_S256x256_S256x256) (ix2 o k))

/-- The second stored block at (l, o): the same through the other matrix, plus the bias at o. -/
theorem pay_t (xb : Vec Ideal S1x256x768 .f32) (w3 : Vec Ideal S256x768 .f32) (b3 : Vec Ideal S1x256 .f32)
    (wt : Vec Ideal S256x256 .f32) (b6 : Vec Ideal S1x256 .f32) (l o : Fin 256) :
    k0_pay2 (k0_pay5 xb w3 b3 wt b6) (ix3 (0 : Fin 1) l o)
      = Cert.PairSpec.lin (Cert.PairSpec.hid (fun h => xb (ix3 (0 : Fin 1) l h)) (fun o h => w3 (ix2 o h)) (fun o => b3 (ix2 (0 : Fin 1) o)))
          (fun o k => wt (ix2 o k)) o + b6 (ix2 (0 : Fin 1) o) := by
  unfold k0_pay2
  refine (shapeCast_ab_1ab_apply _ shapeCasts_S256x256_S1x256x256 (0 : Fin 1) l o).trans ?_
  rw [truncf_apply]
  unfold k0_pay5
  rw [addf_apply]
  simp only [matmul]
  rw [mm256_apply, broadcastTo_1b_ab_apply]
  unfold Cert.PairSpec.lin
  refine congrArg₂ (· + ·) (Finset.sum_congr rfl fun k _ => ?_) (congrFun (shapeCast_self b6 shapeCasts_S1x256_S1x256) (ix2 (0 : Fin 1) o))
  rw [truncf_apply, truncf_apply]
  exact congrArg₂ (· * ·) (hid_apply xb w3 b3 l k) (congrFun (shapeCast_self wt shapeCasts_S256x256_S256x256) (ix2 o k))

end Cert.KernelIdeal.PairK0

end
-- ==== Proof.Region0Host.lean ====
/-
  What the first stage finds in its input arrays.

  Before the first stage runs, five host operations prepare its operands: the 256 x 512 matrix is cut into its left
  and right 256 x 256 halves (columns 0..255 and 256..511), and each of the three bias vectors of length 256 is laid
  out as one row, 1 x 256. Nothing writes the three arrays the stage takes directly (the batch of rows and the two
  256 x 768 weight matrices), so they are as launched. Here each of the eight operand arrays is read, entry by entry,
  in terms of the launch contents: an entry (o, k) of the left half is entry (o, k) of the matrix, of the right half
  entry (o, 256 + k); entry (0, o) of a bias row is entry o of the bias vector.
-/
import proofs.«174367_j39779987096206_2_alg».proof.Proof.Gen.KernelIdeal.Frame
import proofs.«174367_j39779987096206_2_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.PairK0

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! ## The three arrays no host operation writes -/

theorem entry_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem entry_arg1 (c : Dev nD) : V1 m ρ c main_arg1 = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem entry_arg3 (c : Dev nD) : V1 m ρ c main_arg3 = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-! ## The five arrays the host operations write -/

/-- The left half of the matrix. -/
theorem entry_v0 (c : Dev nD) : (V1 m ρ c main_v0 : S256x256.Idx → Elt F .f32)
    = extractStridedSlice S256x256 ![0, 0] (m ((c : Thread nD τ).loc main_arg5) : S256x512.Idx → Elt F .f32) slices_S256x512_S256x256_0_0 := by
  dsimp only [V1, W1, hostOps0]; after_results

/-- The right half of the matrix. -/
theorem entry_v1 (c : Dev nD) : (V1 m ρ c main_v1 : S256x256.Idx → Elt F .f32)
    = extractStridedSlice S256x256 ![0, 256] (m ((c : Thread nD τ).loc main_arg5) : S256x512.Idx → Elt F .f32) slices_S256x512_S256x256_0_256 := by
  dsimp only [V1, W1, hostOps0]; after_results

/-- The first layer's bias as a row. -/
theorem entry_v2 (c : Dev nD) : (V1 m ρ c main_v2 : S1x256.Idx → Elt F .f32)
    = shapeCast S1x256 (m ((c : Thread nD τ).loc main_arg2) : S256.Idx → Elt F .f32) shapeCasts_S256_S1x256 := by
  dsimp only [V1, W1, hostOps0]; after_results; rfl

/-- The second layer's bias as a row. -/
theorem entry_v3 (c : Dev nD) : (V1 m ρ c main_v3 : S1x256.Idx → Elt F .f32)
    = shapeCast S1x256 (m ((c : Thread nD τ).loc main_arg4) : S256.Idx → Elt F .f32) shapeCasts_S256_S1x256 := by
  dsimp only [V1, W1, hostOps0]; after_results; rfl

/-- The output bias as a row. -/
theorem entry_v4 (c : Dev nD) : (V1 m ρ c main_v4 : S1x256.Idx → Elt F .f32)
    = shapeCast S1x256 (m ((c : Thread nD τ).loc main_arg6) : S256.Idx → Elt F .f32) shapeCasts_S256_S1x256 := by
  dsimp only [V1, W1, hostOps0]; after_results; rfl

/-! ## The same, entry by entry -/

theorem entry_v0_apply (c : Dev nD) (o k : Fin 256) : (V1 m ρ c main_v0 : S256x256.Idx → Elt F .f32) (ix2 o k)
    = (m ((c : Thread nD τ).loc main_arg5) : S256x512.Idx → Elt F .f32) (ix2 o (Cert.PairSpec.colL k)) := by
  rw [entry_v0]
  exact slice2_axis1_apply 0 _ slices_S256x512_S256x256_0_0 o k (Cert.PairSpec.colL k) (Nat.zero_add _).symm

theorem entry_v1_apply (c : Dev nD) (o k : Fin 256) : (V1 m ρ c main_v1 : S256x256.Idx → Elt F .f32) (ix2 o k)
    = (m ((c : Thread nD τ).loc main_arg5) : S256x512.Idx → Elt F .f32) (ix2 o (Cert.PairSpec.colR k)) := by
  rw [entry_v1]
  exact slice2_axis1_apply 256 _ slices_S256x512_S256x256_0_256 o k (Cert.PairSpec.colR k) rfl

theorem entry_v2_apply (c : Dev nD) (o : Fin 256) : (V1 m ρ c main_v2 : S1x256.Idx → Elt F .f32) (ix2 (0 : Fin 1) o)
    = (m ((c : Thread nD τ).loc main_arg2) : S256.Idx → Elt F .f32) (ix1 o) := by
  rw [entry_v2]
  exact shapeCast_a_1a_apply _ shapeCasts_S256_S1x256 (0 : Fin 1) o

theorem entry_v3_apply (c : Dev nD) (o : Fin 256) : (V1 m ρ c main_v3 : S1x256.Idx → Elt F .f32) (ix2 (0 : Fin 1) o)
    = (m ((c : Thread nD τ).loc main_arg4) : S256.Idx → Elt F .f32) (ix1 o) := by
  rw [entry_v3]
  exact shapeCast_a_1a_apply _ shapeCasts_S256_S1x256 (0 : Fin 1) o

theorem entry_v4_apply (c : Dev nD) (o : Fin 256) : (V1 m ρ c main_v4 : S1x256.Idx → Elt F .f32) (ix2 (0 : Fin 1) o)
    = (m ((c : Thread nD τ).loc main_arg6) : S256.Idx → Elt F .f32) (ix1 o) := by
  rw [entry_v4]
  exact shapeCast_a_1a_apply _ shapeCasts_S256_S1x256 (0 : Fin 1) o

end Cert.KernelIdeal.PairK0

end
-- ==== Proof.Region0.lean ====
/-
  The two arrays the first stage leaves.

  The first stage runs over four grid points, one per batch entry. At point t it reads batch entry t of the input (a
  1 x 256 x 768 block) and the whole of the seven other operand arrays, and writes the 1 x 256 x 256 blocks t of its
  two result arrays. Entry (0, l, o) of what it writes is, by the arithmetic of the body at an entry, the hidden row l
  of batch entry t through row o of one half of the 256 x 512 matrix (plus a bias for the second result), with every
  operand entry traced back to the launch contents. The four blocks are disjoint slabs that fill the result arrays, and
  each is written back once, so after the stage the two arrays hold s2 and t2 of the argument arrays at every index.
-/
import proofs.«174367_j39779987096206_2_alg».proof.Proof.Region0Pay
import proofs.«174367_j39779987096206_2_alg».proof.Proof.Region0Host
import Idealize.ShloMosaic.Lib.Pipeline.Value

noncomputable section

namespace Cert.KernelIdeal.PairK0

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The batch entry grid point t works on: t itself. -/
def pt (t : Fin cfg0.N) : Fin 4 := Fin.cast N_0 t

/-! ## Which block each window shows at a point: the batch-indexed ones move with the point, the others stay -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## Each input block, entry by entry, in terms of the launch contents -/

theorem blk0_apply (c : Dev nD) (t : Fin cfg0.N) (l : Fin 256) (h : Fin 768) :
    (iblk0 (V1 m ρ) c 0 t : Vec Ideal S1x256x768 .f32) (ix3 (0 : Fin 1) l h)
      = ((m ((c : Thread nD τ).loc main_arg0)) : Cert.PairSpec.AX) (ix3 (pt t) l h) := by
  obtain ⟨e0, e1, e2⟩ := idx0 t
  have he : ((cfg0.win 0).blk t).view.emb (ix3 (0 : Fin 1) l h) = (ix3 (pt t) l h : S4x256x768.Idx) := by
    funext a; apply Fin.ext
    match a with
    | ⟨0, _⟩ => show win0_0.index t (0 : Fin 3) * 1 + 1 * 0 = t.val; omega
    | ⟨1, _⟩ => show win0_0.index t (1 : Fin 3) * 256 + 1 * l.val = l.val; omega
    | ⟨2, _⟩ => show win0_0.index t (2 : Fin 3) * 768 + 1 * h.val = h.val; omega
  unfold iblk0
  rw [View.read_apply]
  show (V1 m ρ c main_arg0 : S4x256x768.Idx → Elt Ideal .f32) (((cfg0.win 0).blk t).view.emb (ix3 (0 : Fin 1) l h)) = _
  rw [he]
  exact congrFun (entry_arg0 m ρ c) _

theorem blk1_apply (c : Dev nD) (t : Fin cfg0.N) (o : Fin 256) (h : Fin 768) :
    (iblk0 (V1 m ρ) c 1 t : Vec Ideal S256x768 .f32) (ix2 o h) = ((m ((c : Thread nD τ).loc main_arg1)) : Cert.PairSpec.AW) (ix2 o h) := by
  obtain ⟨e0, e1⟩ := idx1 t
  have he : ((cfg0.win 1).blk t).view.emb (ix2 o h) = (ix2 o h : S256x768.Idx) := by
    funext a; apply Fin.ext
    match a with
    | ⟨0, _⟩ => show win0_1.index t (0 : Fin 2) * 256 + 1 * o.val = o.val; omega
    | ⟨1, _⟩ => show win0_1.index t (1 : Fin 2) * 768 + 1 * h.val = h.val; omega
  unfold iblk0
  rw [View.read_apply]
  show (V1 m ρ c main_arg1 : S256x768.Idx → Elt Ideal .f32) (((cfg0.win 1).blk t).view.emb (ix2 o h)) = _
  rw [he]
  exact congrFun (entry_arg1 m ρ c) _

theorem blk2_apply (c : Dev nD) (t : Fin cfg0.N) (o : Fin 256) :
    (iblk0 (V1 m ρ) c 2 t : Vec Ideal S1x256 .f32) (ix2 (0 : Fin 1) o) = ((m ((c : Thread nD τ).loc main_arg2)) : Cert.PairSpec.AB) (ix1 o) := by
  obtain ⟨e0, e1⟩ := idx2 t
  have he : ((cfg0.win 2).blk t).view.emb (ix2 (0 : Fin 1) o) = (ix2 (0 : Fin 1) o : S1x256.Idx) := by
    funext a; apply Fin.ext
    match a with
    | ⟨0, _⟩ => show win0_2.index t (0 : Fin 2) * 1 + 1 * 0 = 0; omega
    | ⟨1, _⟩ => show win0_2.index t (1 : Fin 2) * 256 + 1 * o.val = o.val; omega
  unfold iblk0
  rw [View.read_apply]
  show (V1 m ρ c main_v2 : S1x256.Idx → Elt Ideal .f32) (((cfg0.win 2).blk t).view.emb (ix2 (0 : Fin 1) o)) = _
  rw [he]
  exact entry_v2_apply m ρ c o

theorem blk3_apply (c : Dev nD) (t : Fin cfg0.N) (o : Fin 256) (h : Fin 768) :
    (iblk0 (V1 m ρ) c 3 t : Vec Ideal S256x768 .f32) (ix2 o h) = ((m ((c : Thread nD τ).loc main_arg3)) : Cert.PairSpec.AW) (ix2 o h) := by
  obtain ⟨e0, e1⟩ := idx3 t
  have he : ((cfg0.win 3).blk t).view.emb (ix2 o h) = (ix2 o h : S256x768.Idx) := by
    funext a; apply Fin.ext
    match a with
    | ⟨0, _⟩ => show win0_3.index t (0 : Fin 2) * 256 + 1 * o.val = o.val; omega
    | ⟨1, _⟩ => show win0_3.index t (1 : Fin 2) * 768 + 1 * h.val = h.val; omega
  unfold iblk0
  rw [View.read_apply]
  show (V1 m ρ c main_arg3 : S256x768.Idx → Elt Ideal .f32) (((cfg0.win 3).blk t).view.emb (ix2 o h)) = _
  rw [he]
  exact congrFun (entry_arg3 m ρ c) _

theorem blk4_apply (c : Dev nD) (t : Fin cfg0.N) (o : Fin 256) :
    (iblk0 (V1 m ρ) c 4 t : Vec Ideal S1x256 .f32) (ix2 (0 : Fin 1) o) = ((m ((c : Thread nD τ).loc main_arg4)) : Cert.PairSpec.AB) (ix1 o) := by
  obtain ⟨e0, e1⟩ := idx4 t
  have he : ((cfg0.win 4).blk t).view.emb (ix2 (0 : Fin 1) o) = (ix2 (0 : Fin 1) o : S1x256.Idx) := by
    funext a; apply Fin.ext
    match a with
    | ⟨0, _⟩ => show win0_4.index t (0 : Fin 2) * 1 + 1 * 0 = 0; omega
    | ⟨1, _⟩ => show win0_4.index t (1 : Fin 2) * 256 + 1 * o.val = o.val; omega
  unfold iblk0
  rw [View.read_apply]
  show (V1 m ρ c main_v3 : S1x256.Idx → Elt Ideal .f32) (((cfg0.win 4).blk t).view.emb (ix2 (0 : Fin 1) o)) = _
  rw [he]
  exact entry_v3_apply m ρ c o

theorem blk5_apply (c : Dev nD) (t : Fin cfg0.N) (o k : Fin 256) :
    (iblk0 (V1 m ρ) c 5 t : Vec Ideal S256x256 .f32) (ix2 o k) = ((m ((c : Thread nD τ).loc main_arg5)) : Cert.PairSpec.AF) (ix2 o (Cert.PairSpec.colL k)) := by
  obtain ⟨e0, e1⟩ := idx5 t
  have he : ((cfg0.win 5).blk t).view.emb (ix2 o k) = (ix2 o k : S256x256.Idx) := by
    funext a; apply Fin.ext
    match a with
    | ⟨0, _⟩ => show win0_5.index t (0 : Fin 2) * 256 + 1 * o.val = o.val; omega
    | ⟨1, _⟩ => show win0_5.index t (1 : Fin 2) * 256 + 1 * k.val = k.val; omega
  unfold iblk0
  rw [View.read_apply]
  show (V1 m ρ c main_v0 : S256x256.Idx → Elt Ideal .f32) (((cfg0.win 5).blk t).view.emb (ix2 o k)) = _
  rw [he]
  exact entry_v0_apply m ρ c o k

theorem blk6_apply (c : Dev nD) (t : Fin cfg0.N) (o k : Fin 256) :
    (iblk0 (V1 m ρ) c 6 t : Vec Ideal S256x256 .f32) (ix2 o k) = ((m ((c : Thread nD τ).loc main_arg5)) : Cert.PairSpec.AF) (ix2 o (Cert.PairSpec.colR k)) := by
  obtain ⟨e0, e1⟩ := idx6 t
  have he : ((cfg0.win 6).blk t).view.emb (ix2 o k) = (ix2 o k : S256x256.Idx) := by
    funext a; apply Fin.ext
    match a with
    | ⟨0, _⟩ => show win0_6.index t (0 : Fin 2) * 256 + 1 * o.val = o.val; omega
    | ⟨1, _⟩ => show win0_6.index t (1 : Fin 2) * 256 + 1 * k.val = k.val; omega
  unfold iblk0
  rw [View.read_apply]
  show (V1 m ρ c main_v1 : S256x256.Idx → Elt Ideal .f32) (((cfg0.win 6).blk t).view.emb (ix2 o k)) = _
  rw [he]
  exact entry_v1_apply m ρ c o k

theorem blk7_apply (c : Dev nD) (t : Fin cfg0.N) (o : Fin 256) :
    (iblk0 (V1 m ρ) c 7 t : Vec Ideal S1x256 .f32) (ix2 (0 : Fin 1) o) = ((m ((c : Thread nD τ).loc main_arg6)) : Cert.PairSpec.AB) (ix1 o) := by
  obtain ⟨e0, e1⟩ := idx7 t
  have he : ((cfg0.win 7).blk t).view.emb (ix2 (0 : Fin 1) o) = (ix2 (0 : Fin 1) o : S1x256.Idx) := by
    funext a; apply Fin.ext
    match a with
    | ⟨0, _⟩ => show win0_7.index t (0 : Fin 2) * 1 + 1 * 0 = 0; omega
    | ⟨1, _⟩ => show win0_7.index t (1 : Fin 2) * 256 + 1 * o.val = o.val; omega
  unfold iblk0
  rw [View.read_apply]
  show (V1 m ρ c main_v4 : S1x256.Idx → Elt Ideal .f32) (((cfg0.win 7).blk t).view.emb (ix2 (0 : Fin 1) o)) = _
  rw [he]
  exact entry_v4_apply m ρ c o

/-! ## One stored block as a function of the launch contents -/

open Cert.PairSpec in
/-- The first stored block, from blocks whose entries are entries of arrays A0, A1, A2, A5 as the stage's windows show
    them at the point of batch entry p. -/
theorem blk_s (x0 : Vec Ideal S1x256x768 .f32) (x1 : Vec Ideal S256x768 .f32) (x2 : Vec Ideal S1x256 .f32) (x5 : Vec Ideal S256x256 .f32)
    (A0 : AX) (A1 : AW) (A2 : AB) (A5 : AF) (p : Fin 4)
    (h0 : ∀ (l : Fin 256) (h : Fin 768), x0 (ix3 (0 : Fin 1) l h) = A0 (ix3 p l h))
    (h1 : ∀ (o : Fin 256) (h : Fin 768), x1 (ix2 o h) = A1 (ix2 o h))
    (h2 : ∀ o : Fin 256, x2 (ix2 (0 : Fin 1) o) = A2 (ix1 o))
    (h5 : ∀ o k : Fin 256, x5 (ix2 o k) = A5 (ix2 o (colL k)))
    (y : S1x256x256.Idx) :
    k0_pay1 (k0_pay4 x0 x1 x2 x5) y = s2 A0 A1 A2 A5 p (y 1) (y 2) := by
  obtain ⟨u, l, o, rfl⟩ : ∃ (u : Fin 1) (l o : Fin 256), y = ix3 u l o := ⟨y 0, y 1, y 2, eq_ix3 y⟩
  obtain rfl : u = 0 := Subsingleton.elim _ _
  show _ = s2 A0 A1 A2 A5 p l o
  rw [pay_s]
  unfold s2 hrow
  simp only [h0, h1, h2, h5]

open Cert.PairSpec in
/-- The second stored block, likewise, with the output bias A6. -/
theorem blk_t (x0 : Vec Ideal S1x256x768 .f32) (x3 : Vec Ideal S256x768 .f32) (x4 : Vec Ideal S1x256 .f32) (x6 : Vec Ideal S256x256 .f32)
    (x7 : Vec Ideal S1x256 .f32)
    (A0 : AX) (A3 : AW) (A4 : AB) (A5 : AF) (A6 : AB) (p : Fin 4)
    (h0 : ∀ (l : Fin 256) (h : Fin 768), x0 (ix3 (0 : Fin 1) l h) = A0 (ix3 p l h))
    (h3 : ∀ (o : Fin 256) (h : Fin 768), x3 (ix2 o h) = A3 (ix2 o h))
    (h4 : ∀ o : Fin 256, x4 (ix2 (0 : Fin 1) o) = A4 (ix1 o))
    (h6 : ∀ o k : Fin 256, x6 (ix2 o k) = A5 (ix2 o (colR k)))
    (h7 : ∀ o : Fin 256, x7 (ix2 (0 : Fin 1) o) = A6 (ix1 o))
    (y : S1x256x256.Idx) :
    k0_pay2 (k0_pay5 x0 x3 x4 x6 x7) y = t2 A0 A3 A4 A5 A6 p (y 1) (y 2) := by
  obtain ⟨u, l, o, rfl⟩ : ∃ (u : Fin 1) (l o : Fin 256), y = ix3 u l o := ⟨y 0, y 1, y 2, eq_ix3 y⟩
  obtain rfl : u = 0 := Subsingleton.elim _ _
  show _ = t2 A0 A3 A4 A5 A6 p l o
  rw [pay_t]
  unfold t2 hrow
  simp only [h0, h3, h4, h6, h7]

/-! ## The two result arrays as functions of the launch contents -/

/-- s2 of the launch contents, by coordinates. -/
def sFun (c : Dev nD) : Fin 4 → Fin 256 → Fin 256 → EReal :=
  Cert.PairSpec.s2 (m ((c : Thread nD τ).loc main_arg0)) (m ((c : Thread nD τ).loc main_arg1)) (m ((c : Thread nD τ).loc main_arg2)) (m ((c : Thread nD τ).loc main_arg5))

/-- t2 of the launch contents, by coordinates. -/
def tFun (c : Dev nD) : Fin 4 → Fin 256 → Fin 256 → EReal :=
  Cert.PairSpec.t2 (m ((c : Thread nD τ).loc main_arg0)) (m ((c : Thread nD τ).loc main_arg3)) (m ((c : Thread nD τ).loc main_arg4)) (m ((c : Thread nD τ).loc main_arg5)) (m ((c : Thread nD τ).loc main_arg6))

/-- The first result array: s2 of the launch contents, index by index. -/
def sArr (c : Dev nD) : S4x256x256.Idx → EReal := fun i => sFun m c (i 0) (i 1) (i 2)

/-- The second result array: t2 of the launch contents, index by index. -/
def tArr (c : Dev nD) : S4x256x256.Idx → EReal := fun i => tFun m c (i 0) (i 1) (i 2)

/-- A function of three coordinates at equal coordinates. -/
theorem idx_congr {α : Type} (f : Fin 4 → Fin 256 → Fin 256 → α) {p p' : Fin 4} {l l' o o' : Fin 256}
    (hp : p = p') (hl : l = l') (ho : o = o') : f p l o = f p' l' o' := by
  subst hp hl ho; rfl

/-- What point t writes back of result 0 is block t of the function, read through the block's rectangle. -/
theorem flushed8_eq (c : Dev nD) (t : Fin cfg0.N) :
    (dat0 (F := Ideal) (V1 m ρ) c).flushed 8 t = ((cfg0.win 8).blk t).view.read (Elt Ideal) (sArr m c) := by
  show (cfg0.win 8).cut (grid0.coords t) ((dat0 (F := Ideal) (V1 m ρ) c).after 8 t) = _
  rw [after0_8]
  unfold out0_8
  rw [View.canon_unit_zero zeros3]
  simp only [View.ld_unit_zero (S := S1x256x768) zeros3, View.ld_unit_zero (S := S256x768) zeros2,
    View.ld_unit_zero (S := S1x256) zeros2, View.ld_unit_zero (S := S256x256) zeros2]
  obtain ⟨e0, e1, e2⟩ := idx8 t
  funext j
  have hj0 : (j 0).val < 1 := (j 0).isLt
  have hj1 : (j 1).val < 256 := (j 1).isLt
  have hj2 : (j 2).val < 256 := (j 2).isLt
  refine (blk_s (iblk0 (V1 m ρ) c 0 t) (iblk0 (V1 m ρ) c 1 t) (iblk0 (V1 m ρ) c 2 t) (iblk0 (V1 m ρ) c 5 t)
    (m ((c : Thread nD τ).loc main_arg0)) (m ((c : Thread nD τ).loc main_arg1)) (m ((c : Thread nD τ).loc main_arg2)) (m ((c : Thread nD τ).loc main_arg5)) (pt t)
    (blk0_apply m ρ c t) (blk1_apply m ρ c t) (blk2_apply m ρ c t) (blk5_apply m ρ c t) ((cfg0.win 8).xinj (grid0.coords t) j)).trans ?_
  show sFun m c (pt t) _ _ = sFun m c ((((cfg0.win 8).blk t).view.emb j) 0) ((((cfg0.win 8).blk t).view.emb j) 1) ((((cfg0.win 8).blk t).view.emb j) 2)
  refine idx_congr (sFun m c) ?_ ?_ ?_
  · apply Fin.ext; show t.val = win0_8.index t (0 : Fin 3) * 1 + 1 * (j 0).val; omega
  · apply Fin.ext; show (j 1).val = win0_8.index t (1 : Fin 3) * 256 + 1 * (j 1).val; omega
  · apply Fin.ext; show (j 2).val = win0_8.index t (2 : Fin 3) * 256 + 1 * (j 2).val; omega

/-- What point t writes back of result 1 is block t of the function, read through the block's rectangle. -/
theorem flushed9_eq (c : Dev nD) (t : Fin cfg0.N) :
    (dat0 (F := Ideal) (V1 m ρ) c).flushed 9 t = ((cfg0.win 9).blk t).view.read (Elt Ideal) (tArr m c) := by
  show (cfg0.win 9).cut (grid0.coords t) ((dat0 (F := Ideal) (V1 m ρ) c).after 9 t) = _
  rw [after0_9]
  unfold out0_9
  rw [View.canon_unit_zero zeros3]
  simp only [View.ld_unit_zero (S := S1x256x768) zeros3, View.ld_unit_zero (S := S256x768) zeros2,
    View.ld_unit_zero (S := S1x256) zeros2, View.ld_unit_zero (S := S256x256) zeros2]
  obtain ⟨e0, e1, e2⟩ := idx9 t
  funext j
  have hj0 : (j 0).val < 1 := (j 0).isLt
  have hj1 : (j 1).val < 256 := (j 1).isLt
  have hj2 : (j 2).val < 256 := (j 2).isLt
  refine (blk_t (iblk0 (V1 m ρ) c 0 t) (iblk0 (V1 m ρ) c 3 t) (iblk0 (V1 m ρ) c 4 t) (iblk0 (V1 m ρ) c 6 t) (iblk0 (V1 m ρ) c 7 t)
    (m ((c : Thread nD τ).loc main_arg0)) (m ((c : Thread nD τ).loc main_arg3)) (m ((c : Thread nD τ).loc main_arg4)) (m ((c : Thread nD τ).loc main_arg5)) (m ((c : Thread nD τ).loc main_arg6)) (pt t)
    (blk0_apply m ρ c t) (blk3_apply m ρ c t) (blk4_apply m ρ c t) (blk6_apply m ρ c t) (blk7_apply m ρ c t) ((cfg0.win 9).xinj (grid0.coords t) j)).trans ?_
  show tFun m c (pt t) _ _ = tFun m c ((((cfg0.win 9).blk t).view.emb j) 0) ((((cfg0.win 9).blk t).view.emb j) 1) ((((cfg0.win 9).blk t).view.emb j) 2)
  refine idx_congr (tFun m c) ?_ ?_ ?_
  · apply Fin.ext; show t.val = win0_9.index t (0 : Fin 3) * 1 + 1 * (j 0).val; omega
  · apply Fin.ext; show (j 1).val = win0_9.index t (1 : Fin 3) * 256 + 1 * (j 1).val; omega
  · apply Fin.ext; show (j 2).val = win0_9.index t (2 : Fin 3) * 256 + 1 * (j 2).val; omega

/-! ## The blocks fill the arrays -/

/-- An index of result 0 lies in point t's block iff each coordinate lies in the block's range on its axis. -/
theorem mem_blk8 (t : Fin cfg0.N) (i : S4x256x256.Idx) :
    i ∈ ((cfg0.win 8).blk t).view.set ↔ ∀ a : Fin 3, win0_8.index t a * S1x256x256.size a ≤ (i a).val ∧ (i a).val < win0_8.index t a * S1x256x256.size a + S1x256x256.size a := by
  show i ∈ ((View.whole main_v5_0).slice (win0_8.rect t)).set ↔ _
  rw [View.set_slice_whole, Rect.mem_set_unit]
  exact Iff.rfl

/-- Every index of result 0 is written back by the point of its batch entry. -/
theorem cover8 (i : S4x256x256.Idx) : ∃ t : Fin cfg0.N, (cfg0.win 8).flush t = true ∧ i ∈ ((cfg0.win 8).blk t).view.set := by
  have hi0 : (i 0).val < 4 := (i 0).isLt
  have hi1 : (i 1).val < 256 := (i 1).isLt
  have hi2 : (i 2).val < 256 := (i 2).isLt
  have hN : cfg0.N = 4 := N_0
  refine ⟨⟨(i 0).val, by rw [hN]; exact hi0⟩, flush0_8 _, ?_⟩
  obtain ⟨e0, e1, e2⟩ := idx8 ⟨(i 0).val, by rw [hN]; exact hi0⟩
  rw [mem_blk8]
  intro a
  match a with
  | ⟨0, _⟩ => show win0_8.index ⟨(i 0).val, _⟩ (0 : Fin 3) * 1 ≤ (i 0).val ∧ (i 0).val < win0_8.index ⟨(i 0).val, _⟩ (0 : Fin 3) * 1 + 1; rw [e0]; show (i 0).val * 1 ≤ (i 0).val ∧ (i 0).val < (i 0).val * 1 + 1; omega
  | ⟨1, _⟩ => show win0_8.index ⟨(i 0).val, _⟩ (1 : Fin 3) * 256 ≤ (i 1).val ∧ (i 1).val < win0_8.index ⟨(i 0).val, _⟩ (1 : Fin 3) * 256 + 256; rw [e1]; omega
  | ⟨2, _⟩ => show win0_8.index ⟨(i 0).val, _⟩ (2 : Fin 3) * 256 ≤ (i 2).val ∧ (i 2).val < win0_8.index ⟨(i 0).val, _⟩ (2 : Fin 3) * 256 + 256; rw [e2]; omega

/-- An index of result 1 lies in point t's block iff each coordinate lies in the block's range on its axis. -/
theorem mem_blk9 (t : Fin cfg0.N) (i : S4x256x256.Idx) :
    i ∈ ((cfg0.win 9).blk t).view.set ↔ ∀ a : Fin 3, win0_9.index t a * S1x256x256.size a ≤ (i a).val ∧ (i a).val < win0_9.index t a * S1x256x256.size a + S1x256x256.size a := by
  show i ∈ ((View.whole main_v5_1).slice (win0_9.rect t)).set ↔ _
  rw [View.set_slice_whole, Rect.mem_set_unit]
  exact Iff.rfl

/-- Every index of result 1 is written back by the point of its batch entry. -/
theorem cover9 (i : S4x256x256.Idx) : ∃ t : Fin cfg0.N, (cfg0.win 9).flush t = true ∧ i ∈ ((cfg0.win 9).blk t).view.set := by
  have hi0 : (i 0).val < 4 := (i 0).isLt
  have hi1 : (i 1).val < 256 := (i 1).isLt
  have hi2 : (i 2).val < 256 := (i 2).isLt
  have hN : cfg0.N = 4 := N_0
  refine ⟨⟨(i 0).val, by rw [hN]; exact hi0⟩, flush0_9 _, ?_⟩
  obtain ⟨e0, e1, e2⟩ := idx9 ⟨(i 0).val, by rw [hN]; exact hi0⟩
  rw [mem_blk9]
  intro a
  match a with
  | ⟨0, _⟩ => show win0_9.index ⟨(i 0).val, _⟩ (0 : Fin 3) * 1 ≤ (i 0).val ∧ (i 0).val < win0_9.index ⟨(i 0).val, _⟩ (0 : Fin 3) * 1 + 1; rw [e0]; show (i 0).val * 1 ≤ (i 0).val ∧ (i 0).val < (i 0).val * 1 + 1; omega
  | ⟨1, _⟩ => show win0_9.index ⟨(i 0).val, _⟩ (1 : Fin 3) * 256 ≤ (i 1).val ∧ (i 1).val < win0_9.index ⟨(i 0).val, _⟩ (1 : Fin 3) * 256 + 256; rw [e1]; omega
  | ⟨2, _⟩ => show win0_9.index ⟨(i 0).val, _⟩ (2 : Fin 3) * 256 ≤ (i 2).val ∧ (i 2).val < win0_9.index ⟨(i 0).val, _⟩ (2 : Fin 3) * 256 + 256; rw [e2]; omega

/-! ## The arrays after the stage -/

/-- After the first stage its first result array holds s2 of the argument arrays. -/
theorem s2_arr (m : (ℓ : Loc nD τ sig) → Buf (Elt Ideal) ℓ) (ρ : Dev nD → PrngReg) (c : Dev nD) :
    (dat0 (F := Ideal) (V1 m ρ) c).arrAt 8 cfg0.N
      = fun i => Cert.PairSpec.s2 (m ((c : Thread nD τ).loc main_arg0)) (m ((c : Thread nD τ).loc main_arg1)) (m ((c : Thread nD τ).loc main_arg2)) (m ((c : Thread nD τ).loc main_arg5)) (i 0) (i 1) (i 2) :=
  (dat0 (F := Ideal) (V1 m ρ) c).arrAt_eq_of_cover 8 (sArr m c) (fun t _ => flushed8_eq m ρ c t) cover8

/-- After the first stage its second result array holds t2 of the argument arrays. -/
theorem t2_arr (m : (ℓ : Loc nD τ sig) → Buf (Elt Ideal) ℓ) (ρ : Dev nD → PrngReg) (c : Dev nD) :
    (dat0 (F := Ideal) (V1 m ρ) c).arrAt 9 cfg0.N
      = fun i => Cert.PairSpec.t2 (m ((c : Thread nD τ).loc main_arg0)) (m ((c : Thread nD τ).loc main_arg3)) (m ((c : Thread nD τ).loc main_arg4)) (m ((c : Thread nD τ).loc main_arg5)) (m ((c : Thread nD τ).loc main_arg6)) (i 0) (i 1) (i 2) :=
  (dat0 (F := Ideal) (V1 m ρ) c).arrAt_eq_of_cover 9 (tArr m c) (fun t _ => flushed9_eq m ρ c t) cover9

end Cert.KernelIdeal.PairK0

end
-- ==== Proof.Region1Pay.lean ====
/-
  One 16-row chunk of the pairing stage, read at an index, over the extended reals.

  The second kernel's loop body takes 16 rows `S[r,:]` of `s2` (a [1,16,256] slab), the whole `t2` block `T[j,:]` ([1,256,256])
  and `fc3_w` ([25,256]). It lays `S[r,k] + T[j,k]` out as a [16,256,256] array, clamps it below at zero, flattens the
  first two axes to 4096 rows, multiplies by `fc3_w` transposed (contracting `k`), unflattens to [16,256,25] and swaps the
  last two axes. Entry `(r, n, j)` of the result is therefore `sum over k of max (S[r,k] + T[j,k]) 0 * fc3_w[n,k]`:
  row `256 r + j` of the flattened array is the pair `(r, j)`, and the product into a zero accumulator is the plain sum.
-/
import proofs.«174367_j39779987096206_2_alg».proof.Proof.Gen.KernelIdeal.Skeleton
import proofs.«174367_j39779987096206_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PairK1

open Idealize.ShloMosaic Idealize.ShloMosaic.ValueIdx Cert.KernelIdeal Cert.KernelIdeal.Gen

/-! ## Layout operations of the chunk, read at coordinates -/

section Layout
variable {α : Type}

/-- Row `256 r + j` of a 4096-row array. -/
abbrev flat (r : Fin 16) (j : Fin 256) : Fin 4096 := ⟨256 * r.val + j.val, by omega⟩

/-- A [4096, c] array viewed as [16, 256, c] reads `(r, j, n)` at row `256 r + j`. -/
theorem cast_split25 (x : (⟨2, ![4096, 25]⟩ : Shape).Idx → α) (h : (⟨2, ![4096, 25]⟩ : Shape).ShapeCasts ⟨3, ![16, 256, 25]⟩)
    (r : Fin 16) (j : Fin 256) (n : Fin 25) :
    shapeCast ⟨3, ![16, 256, 25]⟩ x h (ix3 r j n) = x (ix2 (flat r j) n) :=
  shapeCast_apply x h _ _ (by
    rw [Shape.rowMajor_val_two, Shape.rowMajor_val_three]
    show (256 * r.val + j.val) * 25 + n.val = (r.val * 256 + j.val) * 25 + n.val
    omega)

/-- A [16, 256, 256] array viewed as [4096, 256] reads row `256 r + j` at `(r, j, ·)`. -/
theorem cast_merge256 (x : (⟨3, ![16, 256, 256]⟩ : Shape).Idx → α) (h : (⟨3, ![16, 256, 256]⟩ : Shape).ShapeCasts ⟨2, ![4096, 256]⟩)
    (r : Fin 16) (j : Fin 256) (k : Fin 256) :
    shapeCast ⟨2, ![4096, 256]⟩ x h (ix2 (flat r j) k) = x (ix3 r j k) :=
  shapeCast_apply x h _ _ (by
    rw [Shape.rowMajor_val_three, Shape.rowMajor_val_two]
    show (r.val * 256 + j.val) * 256 + k.val = (256 * r.val + j.val) * 256 + k.val
    omega)

/-- A [16, 256] array viewed as [16, 1, 256] reads `(r, u, k)` at `(r, k)`. -/
theorem cast_mid (x : (⟨2, ![16, 256]⟩ : Shape).Idx → α) (h : (⟨2, ![16, 256]⟩ : Shape).ShapeCasts ⟨3, ![16, 1, 256]⟩)
    (r : Fin 16) (u : Fin 1) (k : Fin 256) :
    shapeCast ⟨3, ![16, 1, 256]⟩ x h (ix3 r u k) = x (ix2 r k) :=
  shapeCast_apply x h _ _ (by
    have hu : u.val = 0 := by omega
    rw [Shape.rowMajor_val_two, Shape.rowMajor_val_three]
    show r.val * 256 + k.val = (r.val * 1 + u.val) * 256 + k.val
    rw [hu]; omega)

/-- A [16, 1, 256] array broadcast along its unit axis to [16, 256, 256] reads `(r, j, k)` at `(r, 0, k)`. -/
theorem bcast_mid (x : (⟨3, ![16, 1, 256]⟩ : Shape).Idx → α) (h : (⟨3, ![16, 1, 256]⟩ : Shape).Broadcasts ⟨3, ![16, 256, 256]⟩)
    (r : Fin 16) (j : Fin 256) (k : Fin 256) :
    broadcastTo ⟨3, ![16, 256, 256]⟩ x h (ix3 r j k) = x (ix3 r (0 : Fin 1) k) :=
  broadcastTo_apply x h _ _ (fun a => match a with | ⟨0, _⟩ => rfl | ⟨1, _⟩ => rfl | ⟨2, _⟩ => rfl)

/-- A [1, 256, 256] array broadcast along its leading unit axis to [16, 256, 256] reads `(r, j, k)` at `(0, j, k)`. -/
theorem bcast_lead (x : (⟨3, ![1, 256, 256]⟩ : Shape).Idx → α) (h : (⟨3, ![1, 256, 256]⟩ : Shape).Broadcasts ⟨3, ![16, 256, 256]⟩)
    (r : Fin 16) (j : Fin 256) (k : Fin 256) :
    broadcastTo ⟨3, ![16, 256, 256]⟩ x h (ix3 r j k) = x (ix3 (0 : Fin 1) j k) :=
  broadcastTo_apply x h _ _ (fun a => match a with | ⟨0, _⟩ => rfl | ⟨1, _⟩ => rfl | ⟨2, _⟩ => rfl)

end Layout

/-- The zero word of the 16-bit format is the number zero. -/
theorem ofBits_zero_bf16 : Ideal.ofBits .bf16 0x0000#16 = 0 := by simp [Ideal.ofBits, Ideal.ieee]

/-! ## The chunk's product: rows of the flattened pairs against rows of `fc3_w` -/

theorem lhs_pair_0 (i : S4096x25.Idx) (q : dot_S4096x256_S25x256_S4096x25_1_1_0_0_n_n.contr.Idx) :
    (dot_S4096x256_S25x256_S4096x25_1_1_0_0_n_n.lhsIdx i q 0).val = (i 0).val := by
  unfold DotDims.lhsIdx
  rw [dif_neg (show ¬(0 : Fin S4096x256.rank) ∈ dot_S4096x256_S25x256_S4096x25_1_1_0_0_n_n.lhsBatch by decide), dif_pos (show (0 : Fin S4096x256.rank) ∈ dot_S4096x256_S25x256_S4096x25_1_1_0_0_n_n.lhsNonContracting by decide)]
  rfl
theorem lhs_pair_1 (i : S4096x25.Idx) (q : dot_S4096x256_S25x256_S4096x25_1_1_0_0_n_n.contr.Idx) :
    (dot_S4096x256_S25x256_S4096x25_1_1_0_0_n_n.lhsIdx i q 1).val = (q ⟨0, by decide⟩).val :=
  dot_S4096x256_S25x256_S4096x25_1_1_0_0_n_n.lhsIdx_val_of_single rfl i q
theorem rhs_pair_0 (i : S4096x25.Idx) (q : dot_S4096x256_S25x256_S4096x25_1_1_0_0_n_n.contr.Idx) :
    (dot_S4096x256_S25x256_S4096x25_1_1_0_0_n_n.rhsIdx i q 0).val = (i 1).val := by
  unfold DotDims.rhsIdx
  rw [dif_neg (show ¬(0 : Fin S25x256.rank) ∈ dot_S4096x256_S25x256_S4096x25_1_1_0_0_n_n.rhsBatch by decide), dif_pos (show (0 : Fin S25x256.rank) ∈ dot_S4096x256_S25x256_S4096x25_1_1_0_0_n_n.rhsNonContracting by decide)]
  rfl
theorem rhs_pair_1 (i : S4096x25.Idx) (q : dot_S4096x256_S25x256_S4096x25_1_1_0_0_n_n.contr.Idx) :
    (dot_S4096x256_S25x256_S4096x25_1_1_0_0_n_n.rhsIdx i q 1).val = (q ⟨0, by decide⟩).val :=
  dot_S4096x256_S25x256_S4096x25_1_1_0_0_n_n.rhsIdx_val_of_single rfl i q

/-- The product into a zero accumulator, at row `q` and column `n`: the sum over `k` of the left operand's `(q, k)` times
    the right operand's `(n, k)`. -/
theorem matmul_pair_apply (lhs : FVec Ideal S4096x256 .bf16) (rhs : FVec Ideal S25x256 .bf16) (q : Fin 4096) (n : Fin 25) :
    matmul dot_S4096x256_S25x256_S4096x25_1_1_0_0_n_n none lhs rhs (constant (F := Ideal) S4096x25 .f32 0x00000000#32) (ix2 q n)
      = ∑ k : Fin 256, lhs (ix2 q k) * rhs (ix2 n k) := by
  simp only [matmul]
  rw [Ideal.matmul_constant_zero_apply, ← Equiv.sum_comp (ValueIdx.contrEquiv1 dot_S4096x256_S25x256_S4096x25_1_1_0_0_n_n 256 rfl rfl).symm]
  refine Finset.sum_congr rfl fun k _ => ?_
  have hk := ValueIdx.contrEquiv1_symm_val dot_S4096x256_S25x256_S4096x25_1_1_0_0_n_n 256 rfl rfl k
  have el : dot_S4096x256_S25x256_S4096x25_1_1_0_0_n_n.lhsIdx (ix2 q n) ((ValueIdx.contrEquiv1 dot_S4096x256_S25x256_S4096x25_1_1_0_0_n_n 256 rfl rfl).symm k) = ix2 q k := funext fun a => Fin.ext (by
    match a with
    | ⟨0, _⟩ => exact lhs_pair_0 _ _
    | ⟨1, _⟩ => exact (lhs_pair_1 _ _).trans hk)
  have er : dot_S4096x256_S25x256_S4096x25_1_1_0_0_n_n.rhsIdx (ix2 q n) ((ValueIdx.contrEquiv1 dot_S4096x256_S25x256_S4096x25_1_1_0_0_n_n 256 rfl rfl).symm k) = ix2 n k := funext fun a => Fin.ext (by
    match a with
    | ⟨0, _⟩ => exact rhs_pair_0 _ _
    | ⟨1, _⟩ => exact (rhs_pair_1 _ _).trans hk)
  rw [el, er]

/-! ## The chunk at an index -/

/-- Entry `(r, n, j)` of the chunk computed from the `t2` block `v0`, the weights `v2` and the 16 rows `v10` of `s2` pairs
    row `r` of the slab with row `j` of the block against row `n` of the weights. -/
theorem pay1_apply (v0 : Vec Ideal S1x256x256 .bf16) (v2 : Vec Ideal S25x256 .f32) (v10 : Vec Ideal S1x16x256 .bf16)
    (r : Fin 16) (n : Fin 25) (j : Fin 256) :
    k1_pay1 (F := Ideal) v0 v2 v10 (ix4 (0 : Fin 1) r n j)
      = Cert.PairSpec.pair (fun k => v10 (ix3 (0 : Fin 1) r k)) (fun k => v0 (ix3 (0 : Fin 1) j k)) (fun k => v2 (ix2 n k)) := by
  unfold k1_pay1
  refine (shapeCast_abc_1abc_apply _ _ (0 : Fin 1) r n j).trans ?_
  refine (transpose_ix3_021_apply _ _ r n j).trans ?_
  refine (cast_split25 _ _ r j n).trans ?_
  refine (matmul_pair_apply _ _ (flat r j) n).trans ?_
  unfold Cert.PairSpec.pair
  refine Finset.sum_congr rfl fun k _ => ?_
  refine congrArg₂ (· * ·) ?_ rfl
  refine (cast_merge256 _ _ r j k).trans ?_
  refine (maximumf_apply _ _ _).trans ?_
  refine congrArg₂ max ?_ ofBits_zero_bf16
  refine (addf_apply _ _ _).trans ?_
  refine congrArg₂ (· + ·) ?_ ?_
  · refine (bcast_mid _ _ r j k).trans ?_
    refine (cast_mid _ _ r (0 : Fin 1) k).trans ?_
    exact shapeCast_1ab_ab_apply _ _ r k
  · refine (bcast_lead _ _ r j k).trans ?_
    refine (shapeCast_ab_1ab_apply _ _ (0 : Fin 1) j k).trans ?_
    exact shapeCast_1ab_ab_apply _ _ j k

end Cert.KernelIdeal.PairK1

end
-- ==== Proof.Region1.lean ====
/-
  What one grid point of the second kernel leaves in its output block, over the extended reals.

  At a grid point the body sees 128 rows `S` of `s2` (a [1,128,256] block), the whole `t2` block `T` ([1,256,256]) and the
  weights `fc3_w` ([25,256]), and fills the output block [1,128,25,256] in eight trips of a loop: trip `k` reads rows
  `16 k .. 16 k + 15` of `S` and stores the chunk computed from them at rows `16 k .. 16 k + 15` of the output block.
  So the stores of the eight trips are blocks of ONE function of the three inputs,
  `(0, i, n, j) ↦ sum over q of max (S[i,q] + T[j,q]) 0 * fc3_w[n,q]`: a trip's piece sits at row offset `16 k`, the rows
  it read sit at the same offset, and inside the chunk row `r` pairs with every `j`. The trips' rectangles tile the
  block, hence the block is that function everywhere.
-/
import proofs.«174367_j39779987096206_2_alg».proof.Proof.Gen.KernelIdeal.Frame
import proofs.«174367_j39779987096206_2_alg».proof.Proof.Region1Pay

set_option maxRecDepth 16384

noncomputable section

namespace Cert.KernelIdeal.PairK1

open Idealize.ShloMosaic Idealize.ShloMosaic.TcCoe Idealize.ShloMosaic.ValueIdx
open Idealize.SL.Sem
open Cert.KernelIdeal Cert.KernelIdeal.Gen

/-! ## The pieces the run finds, spelled out -/

section Pieces
variable {F : FTy → Type} [FloatOps F]

/-- Trip `k` stores one piece: at rows `16 k ..` of the output block, the chunk computed from the rows of the first
    input it loaded at the same offset. -/
theorem trip_piece (𝒱 : Variants) (c : Dev nD) (bd : Option 𝒱.V) (i : grid1.Coords) (arg2 : Memref sig .tc .vmem S1x128x256 .bf16) (harg2 : arg2.IsWhole) (arg3 : Memref sig .tc .vmem S1x256x256 .bf16) (harg3 : arg3.IsWhole) (arg4 : Memref sig .tc .vmem S25x256 .f32) (harg4 : arg4.IsWhole) (arg5 : Memref sig .tc .vmem S1x128x25x256 .f32) (harg5 : arg5.IsWhole) (v0 : Vec F S1x256x256 .bf16) (v2 : Vec F S25x256 .f32) (X_arg2 : BufTy.Contents (Elt F) arg2.view.ty) (k : Fin k1_t1_loop.trips) :
    tripL_k1_t1 (F := F) 𝒱 c bd i arg2 harg2 arg3 harg3 arg4 harg4 arg5 harg5 v0 v2 X_arg2 k
      = [⟨Rect.unit (s := S1x128x25x256) (k1_off2 k) S1x16x25x256.size (k1_off2_inb k),
          k1_pay1 v0 v2 (View.readAt (Elt F) arg2.view (Rect.unit (s := S1x128x256) (k1_off1 k) S1x16x256.size (k1_off1_inb k)).toLoadRect X_arg2)⟩] := by
  unfold tripL_k1_t1 trip_k1_t1
  rfl

/-- The body's stores are the trips' pieces, last trip first, over the `t2` block and the weights it loaded whole. -/
theorem run_pieces (c : Dev nD) (i : grid1.Coords) (arg2 : Memref sig .tc .vmem S1x128x256 .bf16) (harg2 : arg2.IsWhole) (arg3 : Memref sig .tc .vmem S1x256x256 .bf16) (harg3 : arg3.IsWhole) (arg4 : Memref sig .tc .vmem S25x256 .f32) (harg4 : arg4.IsWhole) (arg5 : Memref sig .tc .vmem S1x128x25x256 .f32) (harg5 : arg5.IsWhole)
    (x0 : Vec F S1x128x256 .bf16) (x1 : Vec F S1x256x256 .bf16) (x2 : Vec F S25x256 .f32) :
    (kernelRun1_A (F := F) c i arg2 harg2 arg3 harg3 arg4 harg4 arg5 harg5 x0 x1 x2).1
      = pb_k1_t1 Variants.none c none i arg2 harg2 arg3 harg3 arg4 harg4 arg5 harg5
          (View.readAt (Elt F) arg3.view (Rect.unit (s := S1x256x256) ![0, 0, 0] S1x256x256.size inb_S1x256x256_S1x256x256_0_0_0).toLoadRect (harg3.unread x1))
          (View.readAt (Elt F) arg4.view (Rect.unit (s := S25x256) ![0, 0] S25x256.size inb_S25x256_S25x256_0_0).toLoadRect (harg4.unread x2))
          (harg2.unread x0) k1_t1_loop.trips := by
  unfold kernelRun1_A
  rfl

end Pieces

/-! ## Where a trip's rectangles sit -/

/-- Row `16 k + r` of a 128-row block, for a trip `k` and a row `r` of its chunk. -/
abbrev rowAt (k : Fin k1_t1_loop.trips) (r : Fin 16) : Fin 128 :=
  ⟨16 * k.val + r.val, by have := Nat.lt_of_lt_of_le k.isLt k1_t1_abs.2.1; omega⟩

/-- The store rectangle of trip `k` places chunk entry `(u, r, n, j)` at `(0, 16 k + r, n, j)` of the block. -/
theorem store_emb (k : Fin k1_t1_loop.trips) (u : Fin 1) (r : Fin 16) (n : Fin 25) (j : Fin 256) :
    (Rect.unit (s := S1x128x25x256) (k1_off2 k) S1x16x25x256.size (k1_off2_inb k)).emb (ix4 u r n j)
      = ix4 (0 : Fin 1) (rowAt k r) n j := by
  have hu : u.val = 0 := by omega
  have e0 : k1_off2 k 0 = 0 := congrFun (k1_off2_eq k) 0
  have e1 : k1_off2 k 1 = 16 * k.val := congrFun (k1_off2_eq k) 1
  have e2 : k1_off2 k 2 = 0 := congrFun (k1_off2_eq k) 2
  have e3 : k1_off2 k 3 = 0 := congrFun (k1_off2_eq k) 3
  funext a
  refine Fin.ext ?_
  match a with
  | ⟨0, _⟩ => show k1_off2 k 0 + 1 * u.val = 0; omega
  | ⟨1, _⟩ => show k1_off2 k 1 + 1 * r.val = 16 * k.val + r.val; omega
  | ⟨2, _⟩ => show k1_off2 k 2 + 1 * n.val = n.val; omega
  | ⟨3, _⟩ => show k1_off2 k 3 + 1 * j.val = j.val; omega

/-- The load rectangle of trip `k` reads slab entry `(u, r, q)` at `(0, 16 k + r, q)` of the block of `s2`. -/
theorem load_emb (k : Fin k1_t1_loop.trips) (u : Fin 1) (r : Fin 16) (q : Fin 256) :
    (Rect.unit (s := S1x128x256) (k1_off1 k) S1x16x256.size (k1_off1_inb k)).emb (ix3 u r q)
      = ix3 (0 : Fin 1) (rowAt k r) q := by
  have hu : u.val = 0 := by omega
  have e0 : k1_off1 k 0 = 0 := congrFun (k1_off1_eq k) 0
  have e1 : k1_off1 k 1 = 16 * k.val := congrFun (k1_off1_eq k) 1
  have e2 : k1_off1 k 2 = 0 := congrFun (k1_off1_eq k) 2
  funext a
  refine Fin.ext ?_
  match a with
  | ⟨0, _⟩ => show k1_off1 k 0 + 1 * u.val = 0; omega
  | ⟨1, _⟩ => show k1_off1 k 1 + 1 * r.val = 16 * k.val + r.val; omega
  | ⟨2, _⟩ => show k1_off1 k 2 + 1 * q.val = q.val; omega

/-! ## The block as one function of the inputs -/

/-- The output block of a grid point as a function of its three input blocks: entry `(·, i, n, j)` pairs row `i` of the
    `s2` rows with row `j` of the `t2` block against row `n` of the weights. -/
def blockOut (x0 : Vec Ideal S1x128x256 .bf16) (x1 : Vec Ideal S1x256x256 .bf16) (x2 : Vec Ideal S25x256 .f32) :
    Vec Ideal S1x128x25x256 .f32 := fun y =>
  Cert.PairSpec.pair (fun q => x0 (ix3 (0 : Fin 1) (y 1) q)) (fun q => x1 (ix3 (0 : Fin 1) (y 3) q)) (fun q => x2 (ix2 (y 2) q))

theorem blockOut_ix4 (x0 : Vec Ideal S1x128x256 .bf16) (x1 : Vec Ideal S1x256x256 .bf16) (x2 : Vec Ideal S25x256 .f32)
    (u : Fin 1) (i : Fin 128) (n : Fin 25) (j : Fin 256) :
    blockOut x0 x1 x2 (ix4 u i n j)
      = Cert.PairSpec.pair (fun q => x0 (ix3 (0 : Fin 1) i q)) (fun q => x1 (ix3 (0 : Fin 1) j q)) (fun q => x2 (ix2 n q)) := rfl

/-- A trip's piece is a block of `blockOut`: its payload at a chunk index is `blockOut` at the index the store's
    rectangle places it at. -/
theorem trip_piece_ok (arg2 : Memref sig .tc .vmem S1x128x256 .bf16) (harg2 : arg2.IsWhole) (arg3 : Memref sig .tc .vmem S1x256x256 .bf16) (harg3 : arg3.IsWhole) (arg4 : Memref sig .tc .vmem S25x256 .f32) (harg4 : arg4.IsWhole)
    (x0 : Vec Ideal S1x128x256 .bf16) (x1 : Vec Ideal S1x256x256 .bf16) (x2 : Vec Ideal S25x256 .f32)
    (k : Fin k1_t1_loop.trips) (x : S1x16x25x256.Idx) :
    k1_pay1 (F := Ideal)
        (View.readAt (Elt Ideal) arg3.view (Rect.unit (s := S1x256x256) ![0, 0, 0] S1x256x256.size inb_S1x256x256_S1x256x256_0_0_0).toLoadRect (harg3.unread x1))
        (View.readAt (Elt Ideal) arg4.view (Rect.unit (s := S25x256) ![0, 0] S25x256.size inb_S25x256_S25x256_0_0).toLoadRect (harg4.unread x2))
        (View.readAt (Elt Ideal) arg2.view (Rect.unit (s := S1x128x256) (k1_off1 k) S1x16x256.size (k1_off1_inb k)).toLoadRect (harg2.unread x0)) x
      = blockOut x0 x1 x2 ((Rect.unit (s := S1x128x25x256) (k1_off2 k) S1x16x25x256.size (k1_off2_inb k)).emb x) := by
  obtain ⟨u, r, n, j, rfl⟩ : ∃ (u : Fin 1) (r : Fin 16) (n : Fin 25) (j : Fin 256), x = ix4 u r n j := ⟨x 0, x 1, x 2, x 3, eq_ix4 x⟩
  obtain rfl : u = 0 := Subsingleton.elim _ _
  rw [store_emb k 0 r n j, blockOut_ix4, pay1_apply]
  simp only [View.readAt_eq_ld, harg2.read_unread, harg3.read_unread, harg4.read_unread]
  have hz3 : (![0, 0, 0] : Fin S1x256x256.rank → Nat) = fun _ => 0 := by funext a; match a with | ⟨0, _⟩ => rfl | ⟨1, _⟩ => rfl | ⟨2, _⟩ => rfl
  have hz2 : (![0, 0] : Fin S25x256.rank → Nat) = fun _ => 0 := by funext a; match a with | ⟨0, _⟩ => rfl | ⟨1, _⟩ => rfl
  rw [View.ld_unit_zero (S := S1x256x256) hz3, View.ld_unit_zero (S := S25x256) hz2]
  refine congrArg (fun f => Cert.PairSpec.pair f _ _) (funext fun q => ?_)
  show x0 ((Rect.unit (s := S1x128x256) (k1_off1 k) S1x16x256.size (k1_off1_inb k)).emb (ix3 (0 : Fin 1) r q)) = _
  rw [load_emb k 0 r q]

/-- Every piece of the trips before `n` is a block of `blockOut`. -/
theorem pieces_ok (c : Dev nD) (i : grid1.Coords) (arg2 : Memref sig .tc .vmem S1x128x256 .bf16) (harg2 : arg2.IsWhole) (arg3 : Memref sig .tc .vmem S1x256x256 .bf16) (harg3 : arg3.IsWhole) (arg4 : Memref sig .tc .vmem S25x256 .f32) (harg4 : arg4.IsWhole) (arg5 : Memref sig .tc .vmem S1x128x25x256 .f32) (harg5 : arg5.IsWhole)
    (x0 : Vec Ideal S1x128x256 .bf16) (x1 : Vec Ideal S1x256x256 .bf16) (x2 : Vec Ideal S25x256 .f32) :
    ∀ (n : ℕ), ∀ p ∈ pb_k1_t1 (F := Ideal) Variants.none c none i arg2 harg2 arg3 harg3 arg4 harg4 arg5 harg5
          (View.readAt (Elt Ideal) arg3.view (Rect.unit (s := S1x256x256) ![0, 0, 0] S1x256x256.size inb_S1x256x256_S1x256x256_0_0_0).toLoadRect (harg3.unread x1))
          (View.readAt (Elt Ideal) arg4.view (Rect.unit (s := S25x256) ![0, 0] S25x256.size inb_S25x256_S25x256_0_0).toLoadRect (harg4.unread x2))
          (harg2.unread x0) n,
        ∀ x : p.1.shape.Idx, p.2 x = blockOut x0 x1 x2 (p.1.emb x)
  | 0 => fun p hp => by rw [pb_k1_t1.eq_1] at hp; exact absurd hp List.not_mem_nil
  | n + 1 => fun p hp => by
    by_cases h : n < k1_t1_loop.trips
    · have e := pb_k1_t1_succ (F := Ideal) Variants.none c none i arg2 harg2 arg3 harg3 arg4 harg4 arg5 harg5
          (View.readAt (Elt Ideal) arg3.view (Rect.unit (s := S1x256x256) ![0, 0, 0] S1x256x256.size inb_S1x256x256_S1x256x256_0_0_0).toLoadRect (harg3.unread x1))
          (View.readAt (Elt Ideal) arg4.view (Rect.unit (s := S25x256) ![0, 0] S25x256.size inb_S25x256_S25x256_0_0).toLoadRect (harg4.unread x2))
          (harg2.unread x0) ⟨n, h⟩
      rw [show (⟨n, h⟩ : Fin k1_t1_loop.trips).val + 1 = n + 1 from rfl, trip_piece] at e
      rw [e] at hp
      rcases List.mem_append.mp hp with hp | hp
      · obtain rfl := List.mem_singleton.mp hp
        exact fun x => trip_piece_ok arg2 harg2 arg3 harg3 arg4 harg4 x0 x1 x2 ⟨n, h⟩ x
      · exact pieces_ok c i arg2 harg2 arg3 harg3 arg4 harg4 arg5 harg5 x0 x1 x2 n p hp
    · rw [pb_k1_t1.eq_2] at hp
      unfold pb_k1_t1Step at hp
      rw [dif_neg h] at hp
      exact pieces_ok c i arg2 harg2 arg3 harg3 arg4 harg4 arg5 harg5 x0 x1 x2 n p hp

/-- What the body leaves in the output's staging buffer is `blockOut` of its input blocks. -/
theorem out1_eq (c : Dev nD) (i : grid1.Coords) (arg2 : Memref sig .tc .vmem S1x128x256 .bf16) (harg2 : arg2.IsWhole) (arg3 : Memref sig .tc .vmem S1x256x256 .bf16) (harg3 : arg3.IsWhole) (arg4 : Memref sig .tc .vmem S25x256 .f32) (harg4 : arg4.IsWhole) (arg5 : Memref sig .tc .vmem S1x128x25x256 .f32) (harg5 : arg5.IsWhole)
    (x0 : Vec Ideal S1x128x256 .bf16) (x1 : Vec Ideal S1x256x256 .bf16) (x2 : Vec Ideal S25x256 .f32) :
    out1_A_3 (F := Ideal) c i arg2 harg2 arg3 harg3 arg4 harg4 arg5 harg5 x0 x1 x2 = blockOut x0 x1 x2 := by
  unfold out1_A_3
  rw [View.read_writes_eq_canon _ _ _ (cover1_A_3 c i arg2 harg2 arg3 harg3 arg4 harg4 arg5 harg5 x0 x1 x2)]
  funext y
  refine View.canon_apply_of_pieces (blockOut x0 x1 x2) _ ?_ y (cover1_A_3 c i arg2 harg2 arg3 harg3 arg4 harg4 arg5 harg5 x0 x1 x2 y)
  rw [run_pieces]
  exact pieces_ok c i arg2 harg2 arg3 harg3 arg4 harg4 arg5 harg5 x0 x1 x2 _

end Cert.KernelIdeal.PairK1

end
-- ==== Proof.Region1Arr.lean ====
/-
  The array the second kernel leaves, as one function of the arrays it finds.

  The grid is 4 x 2: point `(p, h)` takes rows `128 h .. 128 h + 127` of batch entry `p` of `s2`, the whole of batch entry
  `p` of `t2`, all of `fc3_w`, and writes block `(p, h, 0, 0)` of the [4,256,25,256] result, a [1,128,25,256] block. What
  the point writes is the block function of those three input blocks; read at the array's coordinates it is
  `(p, i, n, j) ↦ sum over q of max (s2[p,i,q] + t2[p,j,q]) 0 * fc3_w[n,q]`, because row `i = 128 h + i'` of the array is row
  `i'` of both the input block of `s2` and the output block. The eight blocks tile the array (row `i` of entry `p` lies in
  the block of point `(p, i / 128)`), so the array ends holding that function everywhere.
-/
import proofs.«174367_j39779987096206_2_alg».proof.Proof.Region1
import Idealize.ShloMosaic.Lib.Pipeline.Value

set_option maxRecDepth 16384

noncomputable section

namespace Cert.KernelIdeal.PairK1

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

/-- The result array as a function of the three arrays the region finds: the pairing of row `i` of `s2` with row `j` of
    `t2`, both of batch entry `p`, against row `n` of `fc3_w`. -/
def arrOut (c : Dev nD) : S4x256x25x256.Idx → EReal := fun y =>
  Cert.PairSpec.pair (fun q => V c main_v5_0 (ix3 (y 0) (y 1) q)) (fun q => V c main_v5_1 (ix3 (y 0) (y 3) q))
    (fun q => V c main_arg7 (ix2 (y 2) q))

/-- The printed index maps over the grid: the `s2` window moves with the output window on its first two axes, the `t2`
    window on the first only, the weights' window stays put; the output's block indices stay in range. -/
theorem idx_facts : ∀ t : Fin cfg1.N,
    win1_0.index t (0 : Fin 3) = win1_3.index t (0 : Fin 4) ∧ win1_0.index t (1 : Fin 3) = win1_3.index t (1 : Fin 4)
    ∧ win1_0.index t (2 : Fin 3) = 0
    ∧ win1_1.index t (0 : Fin 3) = win1_3.index t (0 : Fin 4) ∧ win1_1.index t (1 : Fin 3) = 0 ∧ win1_1.index t (2 : Fin 3) = 0
    ∧ win1_2.index t (0 : Fin 2) = 0 ∧ win1_2.index t (1 : Fin 2) = 0
    ∧ win1_3.index t (2 : Fin 4) = 0 ∧ win1_3.index t (3 : Fin 4) = 0
    ∧ win1_3.index t (0 : Fin 4) ≤ 3 ∧ win1_3.index t (1 : Fin 4) ≤ 1 :=
  (by decide +kernel : ∀ t : Fin grid1.N, _)

/-- Every block of the result is some point's. -/
theorem idx_onto : ∀ (q0 : Fin 4) (q1 : Fin 2), ∃ t : Fin cfg1.N, win1_3.index t = ![q0.val, q1.val, 0, 0] :=
  (by decide +kernel : ∀ (q0 : Fin 4) (q1 : Fin 2), ∃ t : Fin grid1.N, win1_3.index t = ![q0.val, q1.val, 0, 0])

/-! ## The input blocks read at the output block's coordinates -/

/-- Row `i'` of the `s2` block at point `t` is row `E 1` of entry `E 0` of the array, for the array index `E` the output
    block places `(·, i', ·, ·)` at. -/
theorem read_s2 (c : Dev nD) (t : Fin cfg1.N) (i' : Fin 128) (q : Fin 256) (E : S4x256x25x256.Idx)
    (h0 : (E 0).val = win1_3.index t (0 : Fin 4)) (h1 : (E 1).val = win1_3.index t (1 : Fin 4) * 128 + i'.val) :
    iblk1 V c 0 t (ix3 (0 : Fin 1) i' q) = V c main_v5_0 (ix3 (E 0) (E 1) q) := by
  obtain ⟨e0, e1, e2, -⟩ := idx_facts t
  show V c main_v5_0 (((cfg1.win 0).blk t).view.emb (ix3 (0 : Fin 1) i' q)) = _
  refine congrArg (V c main_v5_0) (funext fun a => Fin.ext ?_)
  match a with
  | ⟨0, _⟩ => show win1_0.index t (0 : Fin 3) * 1 + 1 * 0 = (E 0).val; omega
  | ⟨1, _⟩ => show win1_0.index t (1 : Fin 3) * 128 + 1 * i'.val = (E 1).val; omega
  | ⟨2, _⟩ => show win1_0.index t (2 : Fin 3) * 256 + 1 * q.val = q.val; omega

/-- Row `j` of the `t2` block at point `t` is row `j` of entry `E 0` of the array. -/
theorem read_t2 (c : Dev nD) (t : Fin cfg1.N) (j : Fin 256) (q : Fin 256) (E : S4x256x25x256.Idx)
    (h0 : (E 0).val = win1_3.index t (0 : Fin 4)) (h3 : (E 3).val = j.val) :
    iblk1 V c 1 t (ix3 (0 : Fin 1) j q) = V c main_v5_1 (ix3 (E 0) (E 3) q) := by
  obtain ⟨-, -, -, e3, e4, e5, -⟩ := idx_facts t
  show V c main_v5_1 (((cfg1.win 1).blk t).view.emb (ix3 (0 : Fin 1) j q)) = _
  refine congrArg (V c main_v5_1) (funext fun a => Fin.ext ?_)
  match a with
  | ⟨0, _⟩ => show win1_1.index t (0 : Fin 3) * 1 + 1 * 0 = (E 0).val; omega
  | ⟨1, _⟩ => show win1_1.index t (1 : Fin 3) * 256 + 1 * j.val = (E 3).val; omega
  | ⟨2, _⟩ => show win1_1.index t (2 : Fin 3) * 256 + 1 * q.val = q.val; omega

/-- The weights' block at any point is the whole array. -/
theorem read_w (c : Dev nD) (t : Fin cfg1.N) (n : Fin 25) (q : Fin 256) (E : S4x256x25x256.Idx) (h2 : (E 2).val = n.val) :
    iblk1 V c 2 t (ix2 n q) = V c main_arg7 (ix2 (E 2) q) := by
  obtain ⟨-, -, -, -, -, -, e6, e7, -⟩ := idx_facts t
  show V c main_arg7 (((cfg1.win 2).blk t).view.emb (ix2 n q)) = _
  refine congrArg (V c main_arg7) (funext fun a => Fin.ext ?_)
  match a with
  | ⟨0, _⟩ => show win1_2.index t (0 : Fin 2) * 25 + 1 * n.val = (E 2).val; omega
  | ⟨1, _⟩ => show win1_2.index t (1 : Fin 2) * 256 + 1 * q.val = q.val; omega

/-! ## What a point writes back, the cover, the array -/

/-- What point `t` writes back is block `t` of `arrOut`. -/
theorem flushed_eq (c : Dev nD) (t : Fin cfg1.N) :
    (dat1 V c).flushed 3 t = ((cfg1.win 3).blk t).view.read (Elt Ideal) (arrOut V c) := by
  show (cfg1.win 3).cut (grid1.coords t) ((dat1 V c).after 3 t) = _
  rw [after1_3]
  unfold outsAt1
  rw [out1_eq]
  funext y
  obtain ⟨u, i', n, j, rfl⟩ : ∃ (u : Fin 1) (i' : Fin 128) (n : Fin 25) (j : Fin 256), y = ix4 u i' n j := ⟨y 0, y 1, y 2, y 3, eq_ix4 y⟩
  have hu : u.val = 0 := by omega
  obtain ⟨-, -, -, -, -, -, -, -, e8, e9, -⟩ := idx_facts t
  show blockOut (iblk1 V c 0 t) (iblk1 V c 1 t) (iblk1 V c 2 t) (ix4 u i' n j)
      = arrOut V c (((cfg1.win 3).blk t).view.emb (ix4 u i' n j))
  rw [blockOut_ix4]
  unfold arrOut
  have h0 : ((((cfg1.win 3).blk t).view.emb (ix4 u i' n j)) 0).val = win1_3.index t (0 : Fin 4) := by
    show win1_3.index t (0 : Fin 4) * 1 + 1 * u.val = _; omega
  have h1 : ((((cfg1.win 3).blk t).view.emb (ix4 u i' n j)) 1).val = win1_3.index t (1 : Fin 4) * 128 + i'.val := by
    show win1_3.index t (1 : Fin 4) * 128 + 1 * i'.val = _; omega
  have h2 : ((((cfg1.win 3).blk t).view.emb (ix4 u i' n j)) 2).val = n.val := by
    show win1_3.index t (2 : Fin 4) * 25 + 1 * n.val = _; omega
  have h3 : ((((cfg1.win 3).blk t).view.emb (ix4 u i' n j)) 3).val = j.val := by
    show win1_3.index t (3 : Fin 4) * 256 + 1 * j.val = _; omega
  have A : (fun q => iblk1 V c 0 t (ix3 (0 : Fin 1) i' q)) = fun q => V c main_v5_0 (ix3 ((((cfg1.win 3).blk t).view.emb (ix4 u i' n j)) 0) ((((cfg1.win 3).blk t).view.emb (ix4 u i' n j)) 1) q) :=
    funext fun q => read_s2 V c t i' q _ h0 h1
  have B : (fun q => iblk1 V c 1 t (ix3 (0 : Fin 1) j q)) = fun q => V c main_v5_1 (ix3 ((((cfg1.win 3).blk t).view.emb (ix4 u i' n j)) 0) ((((cfg1.win 3).blk t).view.emb (ix4 u i' n j)) 3) q) :=
    funext fun q => read_t2 V c t j q _ h0 h3
  have C : (fun q => iblk1 V c 2 t (ix2 n q)) = fun q => V c main_arg7 (ix2 ((((cfg1.win 3).blk t).view.emb (ix4 u i' n j)) 2) q) :=
    funext fun q => read_w V c t n q _ h2
  rw [A, B, C]

/-- An index of the result is in point `t`'s block iff each coordinate is in the block's range on its axis. -/
theorem mem_blk (t : Fin cfg1.N) (i : S4x256x25x256.Idx) :
    i ∈ ((cfg1.win 3).blk t).view.set ↔ ∀ a : Fin 4, win1_3.index t a * S1x128x25x256.size a ≤ (i a).val ∧ (i a).val < win1_3.index t a * S1x128x25x256.size a + S1x128x25x256.size a := by
  show i ∈ ((View.whole main_v6).slice (win1_3.rect t)).set ↔ _
  rw [View.set_slice_whole, Rect.mem_set_unit]
  exact Iff.rfl

/-- Every index of the result lies in the block of some point that writes back. -/
theorem cover (i : S4x256x25x256.Idx) : ∃ t : Fin cfg1.N, (cfg1.win 3).flush t = true ∧ i ∈ ((cfg1.win 3).blk t).view.set := by
  have hi0 : (i 0).val < 4 := (i 0).isLt
  have hi1 : (i 1).val < 256 := (i 1).isLt
  have hi2 : (i 2).val < 25 := (i 2).isLt
  have hi3 : (i 3).val < 256 := (i 3).isLt
  obtain ⟨t, ht⟩ := idx_onto ⟨(i 0).val, hi0⟩ ⟨(i 1).val / 128, by omega⟩
  have q0 : win1_3.index t (0 : Fin 4) = (i 0).val := congrFun ht 0
  have q1 : win1_3.index t (1 : Fin 4) = (i 1).val / 128 := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 25 ≤ (i 2).val ∧ (i 2).val < win1_3.index t (2 : Fin 4) * 25 + 25; omega
  | ⟨3, _⟩ => show win1_3.index t (3 : Fin 4) * 256 ≤ (i 3).val ∧ (i 3).val < win1_3.index t (3 : Fin 4) * 256 + 256; omega

/-- The result array after the region: the pairing function of the arrays the region found. -/
theorem arr_eq (c : Dev nD) : (dat1 V c).arrAt 3 cfg1.N = arrOut V c :=
  (dat1 V c).arrAt_eq_of_cover 3 (arrOut V c) (fun t _ => flushed_eq V c t) (cover)

end Cert.KernelIdeal.PairK1

end
-- ==== Proof.KValue.lean ====
/-
  The idealized kernel's result as one function of its arguments.

  The run's final contents are a fold through @main: the host stretch, the first region, the second region. Read at the
  result buffer the fold gives the second region's output array, which is the pairing function of the three arrays that
  region found: the two arrays the first region left, and `fc3_w`, which nothing before it writes. The first region's
  arrays are `s2` and `t2` of the launch arguments. Substituting, the result is the specification `G` of the eight
  argument arrays.
-/
import proofs.«174367_j39779987096206_2_alg».proof.Proof.Region0
import proofs.«174367_j39779987096206_2_alg».proof.Proof.Region1Arr

set_option maxRecDepth 16384

noncomputable section

namespace Cert.KernelIdeal.PairValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The second region finds `fc3_w` as launched: it is one of that region's own input arrays, which the fold leaves in
    place, and the argument is as launched at the end. -/
theorem entry_w (c : Dev nD) : V2 m ρ c main_arg7 = m ((c : Thread nD τ).loc main_arg7) :=
  ((W3_arr m ρ c 2).trans (((dat1 (V2 m ρ) c).arrAt_in 2 rfl _).trans (A_eq1 (V2 m ρ) c 2))).symm.trans (W3_main_arg7 m ρ c)

/-- The second region finds, in the first region's first output, `s2` of the launch arguments. -/
theorem entry_s2 (c : Dev nD) :
    V2 m ρ c main_v5_0 = fun i => Cert.PairSpec.s2 (m ((c : Thread nD τ).loc main_arg0)) (m ((c : Thread nD τ).loc main_arg1))
      (m ((c : Thread nD τ).loc main_arg2)) (m ((c : Thread nD τ).loc main_arg5)) (i 0) (i 1) (i 2) :=
  (W2_arr m ρ c 8).trans (Cert.KernelIdeal.PairK0.s2_arr m ρ c)

/-- The second region finds, in the first region's second output, `t2` of the launch arguments. -/
theorem entry_t2 (c : Dev nD) :
    V2 m ρ c main_v5_1 = fun i => Cert.PairSpec.t2 (m ((c : Thread nD τ).loc main_arg0)) (m ((c : Thread nD τ).loc main_arg3))
      (m ((c : Thread nD τ).loc main_arg4)) (m ((c : Thread nD τ).loc main_arg5)) (m ((c : Thread nD τ).loc main_arg6)) (i 0) (i 1) (i 2) :=
  (W2_arr m ρ c 9).trans (Cert.KernelIdeal.PairK0.t2_arr m ρ c)

/-- The fold's contents at the result buffer: the specification of the launch arguments. -/
theorem kernel_value (c : Dev nD) :
    W3 m ρ c (Proc.devRef .tc main_v6)
      = Cert.PairSpec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W3_arr m ρ c 3).trans ?_
  rw [Cert.KernelIdeal.PairK1.arr_eq]
  unfold Cert.KernelIdeal.PairK1.arrOut
  rw [entry_s2, entry_t2, entry_w]
  rfl

end Cert.KernelIdeal.PairValue

end
-- ==== Proof.lean ====
/-
  The kernel and its reference compute one function.

  The kernel runs two regions: the first turns each of the four batch entries of the input into the two arrays `s2` and
  `t2` (two ReLU layers, each followed by one half of a linear map); the second pairs every row of `s2` with every row
  of `t2` of the same batch entry, clamps the sum below at zero and contracts it with `fc3_w`, writing the result
  already transposed. The reference does the same with whole-array operations and transposes at the end. Over the
  extended reals, where a change of number format is the identity and a product into a zero accumulator is the plain
  sum, both results are the function `Cert.PairSpec.G` of the eight argument arrays (Proof/Spec.lean): the reference by
  reading its operations one at a time (Proof/RefValue.lean), the kernel by reading what each region's grid points write
  back and that their blocks tile the arrays (Proof/Region0*.lean, Proof/Region1*.lean, Proof/KValue.lean) along the run
  of @main (Proof/KRun.lean). No step rearranges a sum or distributes a product, so the finiteness of the inputs is
  never used. The three frame claims are the generated frames (the reference's is its generated run with the result
  dropped), and the idealization rewrote nothing, so `preserves` holds trivially.
-/
import proofs.«174367_j39779987096206_2_alg».proof.Defs
import proofs.«174367_j39779987096206_2_alg».proof.Proof.Gen.Kernel
import proofs.«174367_j39779987096206_2_alg».proof.Proof.Gen.Kernel.Skeleton
import proofs.«174367_j39779987096206_2_alg».proof.Proof.Gen.Kernel.Loops
import proofs.«174367_j39779987096206_2_alg».proof.Proof.Gen.Kernel.Launch
import proofs.«174367_j39779987096206_2_alg».proof.Proof.Gen.Kernel.Points
import proofs.«174367_j39779987096206_2_alg».proof.Proof.Gen.Kernel.Frame
import proofs.«174367_j39779987096206_2_alg».proof.Proof.Gen.KernelIdeal
import proofs.«174367_j39779987096206_2_alg».proof.Proof.Gen.KernelIdeal.Skeleton
import proofs.«174367_j39779987096206_2_alg».proof.Proof.Gen.KernelIdeal.Loops
import proofs.«174367_j39779987096206_2_alg».proof.Proof.Gen.KernelIdeal.Launch
import proofs.«174367_j39779987096206_2_alg».proof.Proof.Gen.KernelIdeal.Points
import proofs.«174367_j39779987096206_2_alg».proof.Proof.Gen.KernelIdeal.Frame
import proofs.«174367_j39779987096206_2_alg».proof.Proof.Gen.ReferenceIdeal
import proofs.«174367_j39779987096206_2_alg».proof.Proof.Gen.ReferenceIdeal.Run
import proofs.«174367_j39779987096206_2_alg».proof.Proof.Gen.ReferenceIdeal.Read
import proofs.«174367_j39779987096206_2_alg».proof.Proof.Gen.Pre_finite_inputs
import proofs.«174367_j39779987096206_2_alg».proof.Proof.Spec
import proofs.«174367_j39779987096206_2_alg».proof.Proof.RefValue
import proofs.«174367_j39779987096206_2_alg».proof.Proof.KRun
import proofs.«174367_j39779987096206_2_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs, from memories agreeing on the arguments, end with the specification of the arguments in
    their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.PairSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.PairValue.kernel_value m ρ c), (h c).2⟩)
      (Cert.KernelIdeal.PairRun.run_named m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v24_eq, Cert.PairRef.ref_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
